-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S64x3x3x32 : Shape := ⟨4, ![64, 3, 3, 32]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S64x3x3x32 : S_.BroadcastsInDim S64x3x3x32 (![] : Fin 0 → Fin S64x3x3x32.rank)
  reducesTo_S64x3x3x32_S_d0_1_2_3 : S64x3x3x32.ReducesTo [0, 1, 2, 3] S_

variable [Facts]

def fn {F : FTy → Type} [FloatOps F] (main_arg0 : FVec F S8x32x32x32 .f32) (main_arg1 : FVec F S64x3x3x32 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S64x3x3x32 .f32 := Host.absf main_arg1
  let main_cst_0 : FVec F S_ .f32 := constant S_ .f32 0x7F800000#32
  let main_v5 : FVec F S64x3x3x32 .f32 := broadcastInDim S64x3x3x32 ![] bcast_S_S64x3x3x32 main_cst_0
  let main_v6 : IVec S64x3x3x32 1 := cmpf .olt main_v4 main_v5
  let main_c_1 : IVec S_ 1 := constantI S_ 1 1#1
  let main_v7 : IVec S_ 1 := (fun x v => Host.reduce IntOp.andi x v reducesTo_S64x3x3x32_S_d0_1_2_3 h_S_) main_v6 main_c_1
  let main_v8 : IVec S_ 1 := andi main_v3 main_v7
  main_v8
-- ==== Kernel.lean ====
abbrev S8x32x32x32 : Shape := ⟨4, ![8, 32, 32, 32]⟩
abbrev S64x3x3x32 : Shape := ⟨4, ![64, 3, 3, 32]⟩
abbrev S_ : Shape := ⟨0, ![]⟩
abbrev S8x34x34x32 : Shape := ⟨4, ![8, 34, 34, 32]⟩
abbrev S8x32x32x1x32 : Shape := ⟨5, ![8, 32, 32, 1, 32]⟩
abbrev S8x32x32x9x32 : Shape := ⟨5, ![8, 32, 32, 9, 32]⟩
abbrev S8x32x32x288 : Shape := ⟨4, ![8, 32, 32, 288]⟩
abbrev S64x288 : Shape := ⟨2, ![64, 288]⟩
abbrev S8192x288 : Shape := ⟨2, ![8192, 288]⟩
abbrev S288x8192 : Shape := ⟨2, ![288, 8192]⟩
abbrev S288x64 : Shape := ⟨2, ![288, 64]⟩
abbrev S64x8192 : Shape := ⟨2, ![64, 8192]⟩
abbrev S288x1024 : Shape := ⟨2, ![288, 1024]⟩
abbrev S64x1024 : Shape := ⟨2, ![64, 1024]⟩
abbrev S288x1 : Shape := ⟨2, ![288, 1]⟩
abbrev S1024 : Shape := ⟨1, ![1024]⟩
abbrev S1x1024 : Shape := ⟨2, ![1, 1024]⟩
abbrev S8x1024 : Shape := ⟨2, ![8, 1024]⟩
abbrev S8192x64 : Shape := ⟨2, ![8192, 64]⟩
abbrev S8x32x32x64 : Shape := ⟨4, ![8, 32, 32, 64]⟩

abbrev nBuf : Space → Nat
  | .hbm => 32
  | .vmem => 5
  | .smem => 0
  | _ => 0

abbrev bufTy : (tb : Table) → Fin (tcTables nBuf tb) → BufTy
  | .hbm, ⟨0, _⟩ => ⟨S8x32x32x32, .f32⟩
  | .hbm, ⟨1, _⟩ => ⟨S64x3x3x32, .f32⟩
  | .hbm, ⟨2, _⟩ => ⟨S_, .i32⟩
  | .hbm, ⟨3, _⟩ => ⟨S_, .f32⟩
  | .hbm, ⟨4, _⟩ => ⟨S8x34x34x32, .f32⟩
  | .hbm, ⟨5, _⟩ => ⟨S8x32x32x32, .f32⟩
  | .hbm, ⟨6, _⟩ => ⟨S8x32x32x32, .f32⟩
  | .hbm, ⟨7, _⟩ => ⟨S8x32x32x32, .f32⟩
  | .hbm, ⟨8, _⟩ => ⟨S8x32x32x32, .f32⟩
  | .hbm, ⟨9, _⟩ => ⟨S8x32x32x32, .f32⟩
  | .hbm, ⟨10, _⟩ => ⟨S8x32x32x32, .f32⟩
  | .hbm, ⟨11, _⟩ => ⟨S8x32x32x32, .f32⟩
  | .hbm, ⟨12, _⟩ => ⟨S8x32x32x32, .f32⟩
  | .hbm, ⟨13, _⟩ => ⟨S8x32x32x32, .f32⟩
  | .hbm, ⟨14, _⟩ => ⟨S8x32x32x1x32, .f32⟩
  | .hbm, ⟨15, _⟩ => ⟨S8x32x32x1x32, .f32⟩
  | .hbm, ⟨16, _⟩ => ⟨S8x32x32x1x32, .f32⟩
  | .hbm, ⟨17, _⟩ => ⟨S8x32x32x1x32, .f32⟩
  | .hbm, ⟨18, _⟩ => ⟨S8x32x32x1x32, .f32⟩
  | .hbm, ⟨19, _⟩ => ⟨S8x32x32x1x32, .f32⟩
  | .hbm, ⟨20, _⟩ => ⟨S8x32x32x1x32, .f32⟩
  | .hbm, ⟨21, _⟩ => ⟨S8x32x32x1x32, .f32⟩
  | .hbm, ⟨22, _⟩ => ⟨S8x32x32x1x32, .f32⟩
  | .hbm, ⟨23, _⟩ => ⟨S8x32x32x9x32, .f32⟩
  | .hbm, ⟨24, _⟩ => ⟨S8x32x32x288, .f32⟩
  | .hbm, ⟨25, _⟩ => ⟨S64x288, .f32⟩
  | .hbm, ⟨26, _⟩ => ⟨S8192x288, .f32⟩
  | .hbm, ⟨27, _⟩ => ⟨S288x8192, .f32⟩
  | .hbm, ⟨28, _⟩ => ⟨S288x64, .f32⟩
  | .hbm, ⟨29, _⟩ => ⟨S64x8192, .f32⟩
  | .hbm, ⟨30, _⟩ => ⟨S8192x64, .f32⟩
  | .hbm, ⟨31, _⟩ => ⟨S8x32x32x64, .f32⟩
  | .local _ .vmem, ⟨0, _⟩ => ⟨S288x1024, .f32⟩
  | .local _ .vmem, ⟨1, _⟩ => ⟨S288x1024, .f32⟩
  | .local _ .vmem, ⟨2, _⟩ => ⟨S288x64, .f32⟩
  | .local _ .vmem, ⟨3, _⟩ => ⟨S64x1024, .f32⟩
  | .local _ .vmem, ⟨4, _⟩ => ⟨S64x1024, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S288x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x32x32x32_S8x34x34x32_000_110_110_000 : S8x32x32x32.Pads (![0, 1, 1, 0] : Fin 4 → Nat) ![0, 1, 1, 0] ![0, 0, 0, 0] S8x34x34x32
  h_S_ : 0 < S_.numel
  slices_S8x34x34x32_S8x32x32x32_0_0_0_0 : S8x34x34x32.Slices ![0, 0, 0, 0] S8x32x32x32
  slices_S8x34x34x32_S8x32x32x32_0_0_1_0 : S8x34x34x32.Slices ![0, 0, 1, 0] S8x32x32x32
  slices_S8x34x34x32_S8x32x32x32_0_0_2_0 : S8x34x34x32.Slices ![0, 0, 2, 0] S8x32x32x32
  slices_S8x34x34x32_S8x32x32x32_0_1_0_0 : S8x34x34x32.Slices ![0, 1, 0, 0] S8x32x32x32
  slices_S8x34x34x32_S8x32x32x32_0_1_1_0 : S8x34x34x32.Slices ![0, 1, 1, 0] S8x32x32x32
  slices_S8x34x34x32_S8x32x32x32_0_1_2_0 : S8x34x34x32.Slices ![0, 1, 2, 0] S8x32x32x32
  slices_S8x34x34x32_S8x32x32x32_0_2_0_0 : S8x34x34x32.Slices ![0, 2, 0, 0] S8x32x32x32
  slices_S8x34x34x32_S8x32x32x32_0_2_1_0 : S8x34x34x32.Slices ![0, 2, 1, 0] S8x32x32x32
  slices_S8x34x34x32_S8x32x32x32_0_2_2_0 : S8x34x34x32.Slices ![0, 2, 2, 0] S8x32x32x32
  bcast_S8x32x32x32_S8x32x32x1x32_0_1_2_4 : S8x32x32x32.BroadcastsInDim S8x32x32x1x32 (![0, 1, 2, 4] : Fin 4 → Fin S8x32x32x1x32.rank)
  concatenates_S8x32x32x1x32_S8x32x32x1x32_S8x32x32x1x32_S8x32x32x1x32_S8x32x32x1x32_S8x32x32x1x32_S8x32x32x1x32_S8x32x32x1x32_S8x32x32x1x32_S8x32x32x9x32_d3 : Shape.Concatenates [S8x32x32x1x32, S8x32x32x1x32, S8x32x32x1x32, S8x32x32x1x32, S8x32x32x1x32, S8x32x32x1x32, S8x32x32x1x32, S8x32x32x1x32, S8x32x32x1x32] S8x32x32x9x32 3
  shapeCasts_S8x32x32x9x32_S8x32x32x288 : S8x32x32x9x32.ShapeCasts S8x32x32x288
  shapeCasts_S64x3x3x32_S64x288 : S64x3x3x32.ShapeCasts S64x288
  shapeCasts_S8x32x32x288_S8192x288 : S8x32x32x288.ShapeCasts S8192x288
  transposes_S8192x288_S288x8192_1_0 : S8192x288.Transposes [1, 0] S288x8192
  transposes_S64x288_S288x64_1_0 : S64x288.Transposes [1, 0] S288x64
  inb_S288x1024_S288x1024_0_0 : ∀ a, (![0, 0] : Fin 2 → Nat) a + S288x1024.size a ≤ S288x1024.size a
  h_S288x1024 : 0 < S288x1024.numel
  shapeCasts_S288x1024_S288x1024 : S288x1024.ShapeCasts S288x1024
  bitsLt_bf16_f32 : FTy.bits .bf16 < FTy.bits .f32
  inb_S288x64_S288x64_0_0 : ∀ a, (![0, 0] : Fin 2 → Nat) a + S288x64.size a ≤ S288x64.size a
  h_S288x64 : 0 < S288x64.numel
  shapeCasts_S288x64_S288x64 : S288x64.ShapeCasts S288x64
  slices_S288x64_o0_0_S288x1 : S288x64.Slices ![0, 0] S288x1
  broadcasts_S288x1_S288x1024 : S288x1.Broadcasts S288x1024
  reduces_S288x1024_S1024 : S288x1024.Reduces [0] S1024
  shapeCasts_S1024_S1x1024 : S1024.ShapeCasts S1x1024
  slices_S288x64_o0_1_S288x1 : S288x64.Slices ![0, 1] S288x1
  slices_S288x64_o0_2_S288x1 : S288x64.Slices ![0, 2] S288x1
  slices_S288x64_o0_3_S288x1 : S288x64.Slices ![0, 3] S288x1
  slices_S288x64_o0_4_S288x1 : S288x64.Slices ![0, 4] S288x1
  slices_S288x64_o0_5_S288x1 : S288x64.Slices ![0, 5] S288x1
  slices_S288x64_o0_6_S288x1 : S288x64.Slices ![0, 6] S288x1
  slices_S288x64_o0_7_S288x1 : S288x64.Slices ![0, 7] S288x1
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  inb_S64x1024_S8x1024_0_0 : ∀ a, (![0, 0] : Fin 2 → Nat) a + S8x1024.size a ≤ S64x1024.size a
  h_S8x1024 : 0 < S8x1024.numel
  slices_S288x64_o0_8_S288x1 : S288x64.Slices ![0, 8] S288x1
  slices_S288x64_o0_9_S288x1 : S288x64.Slices ![0, 9] S288x1
  slices_S288x64_o0_10_S288x1 : S288x64.Slices ![0, 10] S288x1
  slices_S288x64_o0_11_S288x1 : S288x64.Slices ![0, 11] S288x1
  slices_S288x64_o0_12_S288x1 : S288x64.Slices ![0, 12] S288x1
  slices_S288x64_o0_13_S288x1 : S288x64.Slices ![0, 13] S288x1
  slices_S288x64_o0_14_S288x1 : S288x64.Slices ![0, 14] S288x1
  slices_S288x64_o0_15_S288x1 : S288x64.Slices ![0, 15] S288x1
  inb_S64x1024_S8x1024_8_0 : ∀ a, (![8, 0] : Fin 2 → Nat) a + S8x1024.size a ≤ S64x1024.size a
  slices_S288x64_o0_16_S288x1 : S288x64.Slices ![0, 16] S288x1
  slices_S288x64_o0_17_S288x1 : S288x64.Slices ![0, 17] S288x1
  slices_S288x64_o0_18_S288x1 : S288x64.Slices ![0, 18] S288x1
  slices_S288x64_o0_19_S288x1 : S288x64.Slices ![0, 19] S288x1
  slices_S288x64_o0_20_S288x1 : S288x64.Slices ![0, 20] S288x1
  slices_S288x64_o0_21_S288x1 : S288x64.Slices ![0, 21] S288x1
  slices_S288x64_o0_22_S288x1 : S288x64.Slices ![0, 22] S288x1
  slices_S288x64_o0_23_S288x1 : S288x64.Slices ![0, 23] S288x1
  inb_S64x1024_S8x1024_16_0 : ∀ a, (![16, 0] : Fin 2 → Nat) a + S8x1024.size a ≤ S64x1024.size a
  slices_S288x64_o0_24_S288x1 : S288x64.Slices ![0, 24] S288x1
  slices_S288x64_o0_25_S288x1 : S288x64.Slices ![0, 25] S288x1
  slices_S288x64_o0_26_S288x1 : S288x64.Slices ![0, 26] S288x1
  slices_S288x64_o0_27_S288x1 : S288x64.Slices ![0, 27] S288x1
  slices_S288x64_o0_28_S288x1 : S288x64.Slices ![0, 28] S288x1
  slices_S288x64_o0_29_S288x1 : S288x64.Slices ![0, 29] S288x1
  slices_S288x64_o0_30_S288x1 : S288x64.Slices ![0, 30] S288x1
  slices_S288x64_o0_31_S288x1 : S288x64.Slices ![0, 31] S288x1
  inb_S64x1024_S8x1024_24_0 : ∀ a, (![24, 0] : Fin 2 → Nat) a + S8x1024.size a ≤ S64x1024.size a
  slices_S288x64_o0_32_S288x1 : S288x64.Slices ![0, 32] S288x1
  slices_S288x64_o0_33_S288x1 : S288x64.Slices ![0, 33] S288x1
  slices_S288x64_o0_34_S288x1 : S288x64.Slices ![0, 34] S288x1
  slices_S288x64_o0_35_S288x1 : S288x64.Slices ![0, 35] S288x1
  slices_S288x64_o0_36_S288x1 : S288x64.Slices ![0, 36] S288x1
  slices_S288x64_o0_37_S288x1 : S288x64.Slices ![0, 37] S288x1
  slices_S288x64_o0_38_S288x1 : S288x64.Slices ![0, 38] S288x1
  slices_S288x64_o0_39_S288x1 : S288x64.Slices ![0, 39] S288x1
  inb_S64x1024_S8x1024_32_0 : ∀ a, (![32, 0] : Fin 2 → Nat) a + S8x1024.size a ≤ S64x1024.size a
  slices_S288x64_o0_40_S288x1 : S288x64.Slices ![0, 40] S288x1
  slices_S288x64_o0_41_S288x1 : S288x64.Slices ![0, 41] S288x1
  slices_S288x64_o0_42_S288x1 : S288x64.Slices ![0, 42] S288x1
  slices_S288x64_o0_43_S288x1 : S288x64.Slices ![0, 43] S288x1
  slices_S288x64_o0_44_S288x1 : S288x64.Slices ![0, 44] S288x1
  slices_S288x64_o0_45_S288x1 : S288x64.Slices ![0, 45] S288x1
  slices_S288x64_o0_46_S288x1 : S288x64.Slices ![0, 46] S288x1
  slices_S288x64_o0_47_S288x1 : S288x64.Slices ![0, 47] S288x1
  inb_S64x1024_S8x1024_40_0 : ∀ a, (![40, 0] : Fin 2 → Nat) a + S8x1024.size a ≤ S64x1024.size a
  slices_S288x64_o0_48_S288x1 : S288x64.Slices ![0, 48] S288x1
  slices_S288x64_o0_49_S288x1 : S288x64.Slices ![0, 49] S288x1
  slices_S288x64_o0_50_S288x1 : S288x64.Slices ![0, 50] S288x1
  slices_S288x64_o0_51_S288x1 : S288x64.Slices ![0, 51] S288x1
  slices_S288x64_o0_52_S288x1 : S288x64.Slices ![0, 52] S288x1
  slices_S288x64_o0_53_S288x1 : S288x64.Slices ![0, 53] S288x1
  slices_S288x64_o0_54_S288x1 : S288x64.Slices ![0, 54] S288x1
  slices_S288x64_o0_55_S288x1 : S288x64.Slices ![0, 55] S288x1
  inb_S64x1024_S8x1024_48_0 : ∀ a, (![48, 0] : Fin 2 → Nat) a + S8x1024.size a ≤ S64x1024.size a
  slices_S288x64_o0_56_S288x1 : S288x64.Slices ![0, 56] S288x1
  slices_S288x64_o0_57_S288x1 : S288x64.Slices ![0, 57] S288x1
  slices_S288x64_o0_58_S288x1 : S288x64.Slices ![0, 58] S288x1
  slices_S288x64_o0_59_S288x1 : S288x64.Slices ![0, 59] S288x1
  slices_S288x64_o0_60_S288x1 : S288x64.Slices ![0, 60] S288x1
  slices_S288x64_o0_61_S288x1 : S288x64.Slices ![0, 61] S288x1
  slices_S288x64_o0_62_S288x1 : S288x64.Slices ![0, 62] S288x1
  slices_S288x64_o0_63_S288x1 : S288x64.Slices ![0, 63] S288x1
  inb_S64x1024_S8x1024_56_0 : ∀ a, (![56, 0] : Fin 2 → Nat) a + S8x1024.size a ≤ S64x1024.size a
  transposes_S64x8192_S8192x64_1_0 : S64x8192.Transposes [1, 0] S8192x64
  shapeCasts_S8192x64_S8x32x32x64 : S8192x64.ShapeCasts S8x32x32x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S288x1024.size a ≤ S288x8192.size a
  hwx0_0 : ∀ i : grid0.Coords, EltTy.bits .f32 = 32 ∨ (Rect.block (s := S288x8192) S288x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .f32 = 32 ∨ (Rect.block (s := S288x64) S288x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x8192.size a
  hwx0_2 : ∀ i : grid0.Coords, EltTy.bits .f32 = 32 ∨ (Rect.block (s := S64x8192) S64x1024.size (cc0_transform_2 i) (hinb0_2 i)).WholeWords (EltTy.packing .f32)

variable [Facts₀]

abbrev win0_0 : Pipeline.Window sig grid0 :=
  Pipeline.Window.ofSpec (Memref.whole main_v23) S288x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S64x3x3x32 : Shape := ⟨4, ![64, 3, 3, 32]⟩
abbrev S_ : Shape := ⟨0, ![]⟩
abbrev S8x34x34x32 : Shape := ⟨4, ![8, 34, 34, 32]⟩
abbrev S8x32x32x1x32 : Shape := ⟨5, ![8, 32, 32, 1, 32]⟩
abbrev S8x32x32x9x32 : Shape := ⟨5, ![8, 32, 32, 9, 32]⟩
abbrev S8x32x32x288 : Shape := ⟨4, ![8, 32, 32, 288]⟩
abbrev S64x288 : Shape := ⟨2, ![64, 288]⟩
abbrev S8192x1x288 : Shape := ⟨3, ![8192, 1, 288]⟩
abbrev S1x64x288 : Shape := ⟨3, ![1, 64, 288]⟩
abbrev S8192x64x288 : Shape := ⟨3, ![8192, 64, 288]⟩
abbrev S8192x64 : Shape := ⟨2, ![8192, 64]⟩
abbrev S8x32x32x64 : Shape := ⟨4, ![8, 32, 32, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S64x3x3x32, .f32⟩
  | .hbm, ⟨2, _⟩ => ⟨S_, .i32⟩
  | .hbm, ⟨3, _⟩ => ⟨S_, .f32⟩
  | .hbm, ⟨4, _⟩ => ⟨S8x34x34x32, .f32⟩
  | .hbm, ⟨5, _⟩ => ⟨S8x32x32x32, .f32⟩
  | .hbm, ⟨6, _⟩ => ⟨S8x32x32x32, .f32⟩
  | .hbm, ⟨7, _⟩ => ⟨S8x32x32x32, .f32⟩
  | .hbm, ⟨8, _⟩ => ⟨S8x32x32x32, .f32⟩
  | .hbm, ⟨9, _⟩ => ⟨S8x32x32x32, .f32⟩
  | .hbm, ⟨10, _⟩ => ⟨S8x32x32x32, .f32⟩
  | .hbm, ⟨11, _⟩ => ⟨S8x32x32x32, .f32⟩
  | .hbm, ⟨12, _⟩ => ⟨S8x32x32x32, .f32⟩
  | .hbm, ⟨13, _⟩ => ⟨S8x32x32x32, .f32⟩
  | .hbm, ⟨14, _⟩ => ⟨S8x32x32x1x32, .f32⟩
  | .hbm, ⟨15, _⟩ => ⟨S8x32x32x1x32, .f32⟩
  | .hbm, ⟨16, _⟩ => ⟨S8x32x32x1x32, .f32⟩
  | .hbm, ⟨17, _⟩ => ⟨S8x32x32x1x32, .f32⟩
  | .hbm, ⟨18, _⟩ => ⟨S8x32x32x1x32, .f32⟩
  | .hbm, ⟨19, _⟩ => ⟨S8x32x32x1x32, .f32⟩
  | .hbm, ⟨20, _⟩ => ⟨S8x32x32x1x32, .f32⟩
  | .hbm, ⟨21, _⟩ => ⟨S8x32x32x1x32, .f32⟩
  | .hbm, ⟨22, _⟩ => ⟨S8x32x32x1x32, .f32⟩
  | .hbm, ⟨23, _⟩ => ⟨S8x32x32x9x32, .f32⟩
  | .hbm, ⟨24, _⟩ => ⟨S8x32x32x288, .f32⟩
  | .hbm, ⟨25, _⟩ => ⟨S64x288, .f32⟩
  | .hbm, ⟨26, _⟩ => ⟨S8192x1x288, .f32⟩
  | .hbm, ⟨27, _⟩ => ⟨S1x64x288, .f32⟩
  | .hbm, ⟨28, _⟩ => ⟨S8192x64x288, .f32⟩
  | .hbm, ⟨29, _⟩ => ⟨S8192x64x288, .f32⟩
  | .hbm, ⟨30, _⟩ => ⟨S8192x64x288, .f32⟩
  | .hbm, ⟨31, _⟩ => ⟨S8192x64x288, .f32⟩
  | .hbm, ⟨32, _⟩ => ⟨S_, .f32⟩
  | .hbm, ⟨33, _⟩ => ⟨S8192x64, .f32⟩
  | .hbm, ⟨34, _⟩ => ⟨S8x32x32x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]

class Facts₀ : Prop where
  pads_S8x32x32x32_S8x34x34x32_000_110_110_000 : S8x32x32x32.Pads (![0, 1, 1, 0] : Fin 4 → Nat) ![0, 1, 1, 0] ![0, 0, 0, 0] S8x34x34x32
  h_S_ : 0 < S_.numel
  slices_S8x34x34x32_S8x32x32x32_0_0_0_0 : S8x34x34x32.Slices ![0, 0, 0, 0] S8x32x32x32
  slices_S8x34x34x32_S8x32x32x32_0_0_1_0 : S8x34x34x32.Slices ![0, 0, 1, 0] S8x32x32x32
  slices_S8x34x34x32_S8x32x32x32_0_0_2_0 : S8x34x34x32.Slices ![0, 0, 2, 0] S8x32x32x32
  slices_S8x34x34x32_S8x32x32x32_0_1_0_0 : S8x34x34x32.Slices ![0, 1, 0, 0] S8x32x32x32
  slices_S8x34x34x32_S8x32x32x32_0_1_1_0 : S8x34x34x32.Slices ![0, 1, 1, 0] S8x32x32x32
  slices_S8x34x34x32_S8x32x32x32_0_1_2_0 : S8x34x34x32.Slices ![0, 1, 2, 0] S8x32x32x32
  slices_S8x34x34x32_S8x32x32x32_0_2_0_0 : S8x34x34x32.Slices ![0, 2, 0, 0] S8x32x32x32
  slices_S8x34x34x32_S8x32x32x32_0_2_1_0 : S8x34x34x32.Slices ![0, 2, 1, 0] S8x32x32x32
  slices_S8x34x34x32_S8x32x32x32_0_2_2_0 : S8x34x34x32.Slices ![0, 2, 2, 0] S8x32x32x32
  bcast_S8x32x32x32_S8x32x32x1x32_0_1_2_4 : S8x32x32x32.BroadcastsInDim S8x32x32x1x32 (![0, 1, 2, 4] : Fin 4 → Fin S8x32x32x1x32.rank)
  concatenates_S8x32x32x1x32_S8x32x32x1x32_S8x32x32x1x32_S8x32x32x1x32_S8x32x32x1x32_S8x32x32x1x32_S8x32x32x1x32_S8x32x32x1x32_S8x32x32x1x32_S8x32x32x9x32_d3 : Shape.Concatenates [S8x32x32x1x32, S8x32x32x1x32, S8x32x32x1x32, S8x32x32x1x32, S8x32x32x1x32, S8x32x32x1x32, S8x32x32x1x32, S8x32x32x1x32, S8x32x32x1x32] S8x32x32x9x32 3
  shapeCasts_S8x32x32x9x32_S8x32x32x288 : S8x32x32x9x32.ShapeCasts S8x32x32x288
  shapeCasts_S64x3x3x32_S64x288 : S64x3x3x32.ShapeCasts S64x288
  shapeCasts_S8x32x32x288_S8192x1x288 : S8x32x32x288.ShapeCasts S8192x1x288
  bcast_S64x288_S1x64x288_1_2 : S64x288.BroadcastsInDim S1x64x288 (![1, 2] : Fin 2 → Fin S1x64x288.rank)
  bcast_S8192x1x288_S8192x64x288_0_1_2 : S8192x1x288.BroadcastsInDim S8192x64x288 (![0, 1, 2] : Fin 3 → Fin S8192x64x288.rank)
  bcast_S1x64x288_S8192x64x288_0_1_2 : S1x64x288.BroadcastsInDim S8192x64x288 (![0, 1, 2] : Fin 3 → Fin S8192x64x288.rank)
  reducesTo_S8192x64x288_S8192x64_d2 : S8192x64x288.ReducesTo [2] S8192x64
  shapeCasts_S8192x64_S8x32x32x64 : S8192x64.ShapeCasts S8x32x32x64

variable [Facts₀]

class Facts : Prop extends Facts₀ where

variable [Facts]
-- ==== Proof.BitsBody.lean ====
/-
  The kernel body of the L1-distance kernel, run once on symbolic operands.
  One call of the body reads its patch tile (288 x 1024: the 288 window entries of 1024 output positions) and the
  whole filter matrix (288 x 64), and writes the 64 x 1024 output tile in eight stores of eight rows each: rows
  8s .. 8s+7 hold, for filters 8s .. 8s+7, the column sums over the 288 window entries of |patch - filter|.
  This module names the eight stored row groups as pure functions of the two loaded tiles, the output tile as the
  canonical array of the eight stores (they tile the 64 rows, so they cover the tile), and proves the body's
  separation-logic triple at any float interpretation: inputs unchanged, output tile at that array.
-/
import proofs.«144693_j5617817223690_2_alg».proof.Proof.Gen.Kernel.Launch
import proofs.«144693_j5617817223690_2_alg».proof.Proof.Gen.Kernel.Skeleton
import proofs.«144693_j5617817223690_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- The whole patch tile. -/
abbrev rPatch : Rect S288x1024 := Rect.unit (s := S288x1024) ![0, 0] S288x1024.size inb_S288x1024_S288x1024_0_0
/-- The whole filter matrix. -/
abbrev rFilt : Rect S288x64 := Rect.unit (s := S288x64) ![0, 0] S288x64.size inb_S288x64_S288x64_0_0
/-- Rows 0 .. 7 of the output tile. -/
abbrev rRows0 : Rect S64x1024 := Rect.unit (s := S64x1024) ![0, 0] S8x1024.size inb_S64x1024_S8x1024_0_0
/-- Rows 8 .. 15 of the output tile. -/
abbrev rRows1 : Rect S64x1024 := Rect.unit (s := S64x1024) ![8, 0] S8x1024.size inb_S64x1024_S8x1024_8_0
/-- Rows 16 .. 23 of the output tile. -/
abbrev rRows2 : Rect S64x1024 := Rect.unit (s := S64x1024) ![16, 0] S8x1024.size inb_S64x1024_S8x1024_16_0
/-- Rows 24 .. 31 of the output tile. -/
abbrev rRows3 : Rect S64x1024 := Rect.unit (s := S64x1024) ![24, 0] S8x1024.size inb_S64x1024_S8x1024_24_0
/-- Rows 32 .. 39 of the output tile. -/
abbrev rRows4 : Rect S64x1024 := Rect.unit (s := S64x1024) ![32, 0] S8x1024.size inb_S64x1024_S8x1024_32_0
/-- Rows 40 .. 47 of the output tile. -/
abbrev rRows5 : Rect S64x1024 := Rect.unit (s := S64x1024) ![40, 0] S8x1024.size inb_S64x1024_S8x1024_40_0
/-- Rows 48 .. 55 of the output tile. -/
abbrev rRows6 : Rect S64x1024 := Rect.unit (s := S64x1024) ![48, 0] S8x1024.size inb_S64x1024_S8x1024_48_0
/-- Rows 56 .. 63 of the output tile. -/
abbrev rRows7 : Rect S64x1024 := Rect.unit (s := S64x1024) ![56, 0] S8x1024.size inb_S64x1024_S8x1024_56_0

/-! ## The eight stored row groups, from the two loaded tiles -/

/-- Row group 0: the eight rows of column sums for filters 0 .. 7, as the body assembles them. -/
def rows0 (v0 : Vec F S288x1024 .f32) (v3 : Vec F S288x64 .f32) : FVec F S8x1024 .f32 :=
  k0_pay11 (k0_pay2 v0) (k0_pay3 v3) (k0_pay4 v0 v3) (k0_pay5 v0 v3) (k0_pay6 v0 v3) (k0_pay7 v0 v3) (k0_pay8 v0 v3) (k0_pay9 v0 v3) (k0_pay10 v3)
/-- Row group 1: the eight rows of column sums for filters 8 .. 15, as the body assembles them. -/
def rows1 (v0 : Vec F S288x1024 .f32) (v3 : Vec F S288x64 .f32) : FVec F S8x1024 .f32 :=
  k0_pay17 (k0_pay2 v0) (k0_pay3 v3) (k0_pay12 (k0_pay2 v0) (k0_pay3 v3)) (k0_pay13 (k0_pay2 v0) (k0_pay3 v3)) (k0_pay14 (k0_pay2 v0) (k0_pay3 v3)) (k0_pay15 (k0_pay2 v0) (k0_pay3 v3)) (k0_pay16 (k0_pay2 v0) (k0_pay3 v3))
/-- Row group 2: the eight rows of column sums for filters 16 .. 23, as the body assembles them. -/
def rows2 (v0 : Vec F S288x1024 .f32) (v3 : Vec F S288x64 .f32) : FVec F S8x1024 .f32 :=
  k0_pay22 (k0_pay2 v0) (k0_pay3 v3) (k0_pay18 (k0_pay2 v0) (k0_pay3 v3)) (k0_pay19 (k0_pay2 v0) (k0_pay3 v3)) (k0_pay20 (k0_pay2 v0) (k0_pay3 v3)) (k0_pay21 (k0_pay2 v0) (k0_pay3 v3))
/-- Row group 3: the eight rows of column sums for filters 24 .. 31, as the body assembles them. -/
def rows3 (v0 : Vec F S288x1024 .f32) (v3 : Vec F S288x64 .f32) : FVec F S8x1024 .f32 :=
  k0_pay26 (k0_pay2 v0) (k0_pay3 v3) (k0_pay23 (k0_pay2 v0) (k0_pay3 v3)) (k0_pay24 (k0_pay2 v0) (k0_pay3 v3)) (k0_pay25 (k0_pay2 v0) (k0_pay3 v3))
/-- Row group 4: the eight rows of column sums for filters 32 .. 39, as the body assembles them. -/
def rows4 (v0 : Vec F S288x1024 .f32) (v3 : Vec F S288x64 .f32) : FVec F S8x1024 .f32 :=
  k0_pay29 (k0_pay2 v0) (k0_pay3 v3) (k0_pay27 (k0_pay2 v0) (k0_pay3 v3)) (k0_pay28 (k0_pay2 v0) (k0_pay3 v3))
/-- Row group 5: the eight rows of column sums for filters 40 .. 47, as the body assembles them. -/
def rows5 (v0 : Vec F S288x1024 .f32) (v3 : Vec F S288x64 .f32) : FVec F S8x1024 .f32 :=
  k0_pay39 (k0_pay31 (k0_pay30 (k0_pay2 v0) (k0_pay3 v3))) (k0_pay32 (k0_pay2 v0) (k0_pay3 v3)) (k0_pay33 (k0_pay2 v0) (k0_pay3 v3)) (k0_pay34 (k0_pay2 v0) (k0_pay3 v3)) (k0_pay35 (k0_pay2 v0) (k0_pay3 v3)) (k0_pay36 (k0_pay2 v0) (k0_pay3 v3)) (k0_pay37 (k0_pay2 v0) (k0_pay3 v3)) (k0_pay38 (k0_pay2 v0) (k0_pay3 v3))
/-- Row group 6: the eight rows of column sums for filters 48 .. 55, as the body assembles them. -/
def rows6 (v0 : Vec F S288x1024 .f32) (v3 : Vec F S288x64 .f32) : FVec F S8x1024 .f32 :=
  k0_pay47 (k0_pay2 v0) (k0_pay3 v3) (k0_pay40 (k0_pay2 v0) (k0_pay3 v3)) (k0_pay41 (k0_pay2 v0) (k0_pay3 v3)) (k0_pay42 (k0_pay2 v0) (k0_pay3 v3)) (k0_pay43 (k0_pay2 v0) (k0_pay3 v3)) (k0_pay44 (k0_pay2 v0) (k0_pay3 v3)) (k0_pay45 (k0_pay2 v0) (k0_pay3 v3)) (k0_pay46 (k0_pay2 v0) (k0_pay3 v3))
/-- Row group 7: the eight rows of column sums for filters 56 .. 63, as the body assembles them. -/
def rows7 (v0 : Vec F S288x1024 .f32) (v3 : Vec F S288x64 .f32) : FVec F S8x1024 .f32 :=
  k0_pay1 (k0_pay2 v0) (k0_pay3 v3) (k0_pay48 (k0_pay2 v0) (k0_pay3 v3)) (k0_pay49 (k0_pay2 v0) (k0_pay3 v3)) (k0_pay50 (k0_pay2 v0) (k0_pay3 v3)) (k0_pay51 (k0_pay2 v0) (k0_pay3 v3)) (k0_pay52 (k0_pay2 v0) (k0_pay3 v3)) (k0_pay53 (k0_pay2 v0) (k0_pay3 v3))

/-- The output tile after the body: the canonical array of the eight row-group stores (last store first). -/
def outTile (x0 : Vec F S288x1024 .f32) (x1 : Vec F S288x64 .f32) : Vec F S64x1024 .f32 :=
  View.canon [⟨rRows7, rows7 (View.ld x0 rPatch) (View.ld x1 rFilt)⟩,
    ⟨rRows6, rows6 (View.ld x0 rPatch) (View.ld x1 rFilt)⟩,
    ⟨rRows5, rows5 (View.ld x0 rPatch) (View.ld x1 rFilt)⟩,
    ⟨rRows4, rows4 (View.ld x0 rPatch) (View.ld x1 rFilt)⟩,
    ⟨rRows3, rows3 (View.ld x0 rPatch) (View.ld x1 rFilt)⟩,
    ⟨rRows2, rows2 (View.ld x0 rPatch) (View.ld x1 rFilt)⟩,
    ⟨rRows1, rows1 (View.ld x0 rPatch) (View.ld x1 rFilt)⟩,
    ⟨rRows0, rows0 (View.ld x0 rPatch) (View.ld x1 rFilt)⟩]

/-- The eight row groups tile the 64 rows, so every index of the output tile lies in one of them. -/
theorem outTile_cover (p0 p1 p2 p3 p4 p5 p6 p7 : Vec F S8x1024 .f32) (y : S64x1024.Idx) :
    ∃ pc ∈ ([⟨rRows7, p7⟩, ⟨rRows6, p6⟩, ⟨rRows5, p5⟩, ⟨rRows4, p4⟩, ⟨rRows3, p3⟩, ⟨rRows2, p2⟩, ⟨rRows1, p1⟩, ⟨rRows0, p0⟩] : List (View.Piece (Elt F) S64x1024 .f32)), y ∈ pc.1.set :=
  View.cover_of_tiled [⟨rRows7, p7⟩, ⟨rRows6, p6⟩, ⟨rRows5, p5⟩, ⟨rRows4, p4⟩, ⟨rRows3, p3⟩, ⟨rRows2, p2⟩, ⟨rRows1, p1⟩, ⟨rRows0, p0⟩] S8x1024.size (by rfl) y

/-! ## The body's triple -/

set_option maxHeartbeats 4000000 in
/-- The body on whole staging buffers — the patch tile at `x0`, the filter matrix at `x1`, the output tile at anything —
    runs to its end leaving the two inputs as they were and the output tile at `outTile x0 x1`. -/
theorem body_triple (c : Dev nD) (E : Set ℕ) (i : grid0.Coords) (arg1 : Memref sig .tc .vmem S288x1024 .f32) (harg1 : arg1.IsWhole) (arg2 : Memref sig .tc .vmem S288x64 .f32) (harg2 : arg2.IsWhole) (arg3 : Memref sig .tc .vmem S64x1024 .f32) (harg3 : arg3.IsWhole)
    (x0 : Vec F S288x1024 .f32) (x1 : Vec F S288x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outTile x0 x1)) -∗ K ⟨⟩))
      ⊢ wp frame (wpE (defs₀ (F := F)) Variants.none c none) E (cc0__l1dist_kernel i arg1 harg1 arg2 harg2 arg3 harg3) K := by
  simp only [cc0__l1dist_kernel_eq_skeleton]; unfold cc0__l1dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _ _ _ _ _ _ _ _)

end Cert.Kernel.Hand

end
-- ==== Proof.BitsHost.lean ====
/-
  The host side of the program around its one kernel region.
  Before the region the host pads the image, cuts the nine shifted 32 x 32 windows, stacks and reshapes them into
  the patch matrix, and transposes patches and filters; after it the host transposes and reshapes the kernel's
  result. None of these lines writes an argument array or (after the region) an array the region stages, so the
  arguments are found and left as launched; this module states that, and reads each staged window's block at a
  grid point off the buffers as the region finds them.
-/
import proofs.«144693_j5617817223690_2_alg».proof.Proof.Gen.Kernel.Launch
import proofs.«144693_j5617817223690_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before the region. -/
abbrev entry (c : Dev nD) : Valuation τ sig (Elt F) := StableHlo.after (List.flatten [hostOps0, hostOps0_1, hostOps0_2]) (fun b => m (c, b))
/-- The same read at a TensorCore reference. -/
abbrev atEntry (c : Dev nD) (b : Ref sig .tc) : Buf (Elt F) ((c : Thread nD τ).loc b) := entry m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the two host lines after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the three arrays the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_arg0 m c

/-- No host line before the region writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not, for any proof data
    whose array is the region-entry one and whose body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not, for any proof data
    whose array is the region-entry one and whose body leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run's -/

/-- For any proof data whose arrays are the region-entry contents, a run to the library's frame post — every staged
    array at what the proof data computes, every other unscoped buffer as the lines after the region leave it — leaves
    both argument arrays as launched. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (exit_arg0 m dats c)),
    (((h c).2 main_arg1 (Pipeline.mem_restRefs_of main_arg1 (by decide) (by decide))).trans (exit_arg1 m dats c))⟩) h

end Cert.Kernel.Hand

end
-- ==== Proof.BitsRun.lean ====
/-
  The program's run: the pipeline's proof data, the body obligation at every grid point, and the launch.
  At grid point t the pipeline stages columns 1024 t .. 1024 t + 1023 of the transposed patch matrix and the whole
  transposed filter matrix, and writes the 64 x 1024 output tile back to the same columns of the result. The proof
  data says just that: each input's staging buffer holds its block, the output's holds the body's output tile of the
  two input blocks. The body's triple discharges the obligation at every point, and the library's launch theorem for
  a region with host lines before and after it gives the run; read at the argument arrays it is the frame claim.
-/
import proofs.«144693_j5617817223690_2_alg».proof.Proof.BitsBody
import proofs.«144693_j5617817223690_2_alg».proof.Proof.BitsHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    each input's buffer at its block and the output's at the body's output tile of the two input blocks; the
    invariant the scoped rest and the generator register, untouched; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => outTile (blockAt m c 0 t) (blockAt m c 1 t)
  Φ _ := Pipeline.ΦA spec0 c
  q _ := fullShare
  owed _ := 0

/-- The proof data's arrays are the region-entry contents. -/
theorem pdata_A (c : Dev nD) (w : Fin cfg0.W) : (pdata m 0 c).A w = atEntry m c (Pipeline.arrRef spec0 w) := by
  dsimp only [pdata]

/-- What the body leaves, window by window. -/
theorem pdata_after0 (c : Dev nD) (t : Fin cfg0.N) : (pdata m 0 c).after 0 t = blockAt m c 0 t := by dsimp only [pdata]
theorem pdata_after1 (c : Dev nD) (t : Fin cfg0.N) : (pdata m 0 c).after 1 t = blockAt m c 1 t := by dsimp only [pdata]
theorem pdata_after2 (c : Dev nD) (t : Fin cfg0.N) : (pdata m 0 c).after 2 t = outTile (blockAt m c 0 t) (blockAt m c 1 t) := by dsimp only [pdata]

/-- Each input's current staging buffer holds its block at every point, fetched there or not. -/
theorem staged0 (c : Dev nD) (t : Fin cfg0.N) (d) : (pdata m 0 c).before 0 t d = blockAt m c 0 t :=
  staged0_of m (pdata m 0 c) (pdata_A m c 0) (pdata_after0 m c) t d
theorem staged1 (c : Dev nD) (t : Fin cfg0.N) (d) : (pdata m 0 c).before 1 t d = blockAt m c 1 t :=
  staged1_of m (pdata m 0 c) (pdata_A m c 1) (pdata_after1 m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the inputs' buffers hold their blocks, so the body's triple applies; the invariant and the
    core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1]
  rw [show (pdata m 0 c).Φ t.succ = (pdata m 0 c).Φ t.castSucc from rfl,
    show (pdata m 0 c).owesAt () t.succ = (pdata m 0 c).owesAt () t.castSucc from rfl,
    pdata_after0, pdata_after1, pdata_after2]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has each
    staged array at what the library computes from the proof data and every other unscoped buffer as the two lines
    after the region leave it. -/
theorem run_main : θ_run defs (onTc (τ := τ) (main (F := F))) (s₀ m ρ) (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := tail_sub) (hfresh := tail_fresh) (hkeep := tail_keeps)
    (hmain := main_around m Variants.none) (hA := pdata_A m) (hΦ := fun _ _ => rfl)

/-- The frame: the program runs to its end without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (pdata m) (pdata_A m) (run_main m ρ)

end Cert.Kernel.Hand

end
-- ==== Proof.IdealBody.lean ====
/-
  The kernel body of the L1-distance kernel, run once on symbolic operands.
  One call of the body reads its patch tile (288 x 1024: the 288 window entries of 1024 output positions) and the
  whole filter matrix (288 x 64), and writes the 64 x 1024 output tile in eight stores of eight rows each: rows
  8s .. 8s+7 hold, for filters 8s .. 8s+7, the column sums over the 288 window entries of |patch - filter|.
  This module names the eight stored row groups as pure functions of the two loaded tiles, the output tile as the
  canonical array of the eight stores (they tile the 64 rows, so they cover the tile), and proves the body's
  separation-logic triple at any float interpretation: inputs unchanged, output tile at that array.
-/
import proofs.«144693_j5617817223690_2_alg».proof.Proof.Gen.KernelIdeal.Launch
import proofs.«144693_j5617817223690_2_alg».proof.Proof.Gen.KernelIdeal.Skeleton
import proofs.«144693_j5617817223690_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- The whole patch tile. -/
abbrev rPatch : Rect S288x1024 := Rect.unit (s := S288x1024) ![0, 0] S288x1024.size inb_S288x1024_S288x1024_0_0
/-- The whole filter matrix. -/
abbrev rFilt : Rect S288x64 := Rect.unit (s := S288x64) ![0, 0] S288x64.size inb_S288x64_S288x64_0_0
/-- Rows 0 .. 7 of the output tile. -/
abbrev rRows0 : Rect S64x1024 := Rect.unit (s := S64x1024) ![0, 0] S8x1024.size inb_S64x1024_S8x1024_0_0
/-- Rows 8 .. 15 of the output tile. -/
abbrev rRows1 : Rect S64x1024 := Rect.unit (s := S64x1024) ![8, 0] S8x1024.size inb_S64x1024_S8x1024_8_0
/-- Rows 16 .. 23 of the output tile. -/
abbrev rRows2 : Rect S64x1024 := Rect.unit (s := S64x1024) ![16, 0] S8x1024.size inb_S64x1024_S8x1024_16_0
/-- Rows 24 .. 31 of the output tile. -/
abbrev rRows3 : Rect S64x1024 := Rect.unit (s := S64x1024) ![24, 0] S8x1024.size inb_S64x1024_S8x1024_24_0
/-- Rows 32 .. 39 of the output tile. -/
abbrev rRows4 : Rect S64x1024 := Rect.unit (s := S64x1024) ![32, 0] S8x1024.size inb_S64x1024_S8x1024_32_0
/-- Rows 40 .. 47 of the output tile. -/
abbrev rRows5 : Rect S64x1024 := Rect.unit (s := S64x1024) ![40, 0] S8x1024.size inb_S64x1024_S8x1024_40_0
/-- Rows 48 .. 55 of the output tile. -/
abbrev rRows6 : Rect S64x1024 := Rect.unit (s := S64x1024) ![48, 0] S8x1024.size inb_S64x1024_S8x1024_48_0
/-- Rows 56 .. 63 of the output tile. -/
abbrev rRows7 : Rect S64x1024 := Rect.unit (s := S64x1024) ![56, 0] S8x1024.size inb_S64x1024_S8x1024_56_0

/-! ## The eight stored row groups, from the two loaded tiles -/

/-- Row group 0: the eight rows of column sums for filters 0 .. 7, as the body assembles them. -/
def rows0 (v0 : Vec F S288x1024 .f32) (v3 : Vec F S288x64 .f32) : FVec F S8x1024 .f32 :=
  k0_pay11 (k0_pay2 v0) (k0_pay3 v3) (k0_pay4 v0 v3) (k0_pay5 v0 v3) (k0_pay6 v0 v3) (k0_pay7 v0 v3) (k0_pay8 v0 v3) (k0_pay9 v0 v3) (k0_pay10 v3)
/-- Row group 1: the eight rows of column sums for filters 8 .. 15, as the body assembles them. -/
def rows1 (v0 : Vec F S288x1024 .f32) (v3 : Vec F S288x64 .f32) : FVec F S8x1024 .f32 :=
  k0_pay17 (k0_pay2 v0) (k0_pay3 v3) (k0_pay12 (k0_pay2 v0) (k0_pay3 v3)) (k0_pay13 (k0_pay2 v0) (k0_pay3 v3)) (k0_pay14 (k0_pay2 v0) (k0_pay3 v3)) (k0_pay15 (k0_pay2 v0) (k0_pay3 v3)) (k0_pay16 (k0_pay2 v0) (k0_pay3 v3))
/-- Row group 2: the eight rows of column sums for filters 16 .. 23, as the body assembles them. -/
def rows2 (v0 : Vec F S288x1024 .f32) (v3 : Vec F S288x64 .f32) : FVec F S8x1024 .f32 :=
  k0_pay22 (k0_pay2 v0) (k0_pay3 v3) (k0_pay18 (k0_pay2 v0) (k0_pay3 v3)) (k0_pay19 (k0_pay2 v0) (k0_pay3 v3)) (k0_pay20 (k0_pay2 v0) (k0_pay3 v3)) (k0_pay21 (k0_pay2 v0) (k0_pay3 v3))
/-- Row group 3: the eight rows of column sums for filters 24 .. 31, as the body assembles them. -/
def rows3 (v0 : Vec F S288x1024 .f32) (v3 : Vec F S288x64 .f32) : FVec F S8x1024 .f32 :=
  k0_pay26 (k0_pay2 v0) (k0_pay3 v3) (k0_pay23 (k0_pay2 v0) (k0_pay3 v3)) (k0_pay24 (k0_pay2 v0) (k0_pay3 v3)) (k0_pay25 (k0_pay2 v0) (k0_pay3 v3))
/-- Row group 4: the eight rows of column sums for filters 32 .. 39, as the body assembles them. -/
def rows4 (v0 : Vec F S288x1024 .f32) (v3 : Vec F S288x64 .f32) : FVec F S8x1024 .f32 :=
  k0_pay29 (k0_pay2 v0) (k0_pay3 v3) (k0_pay27 (k0_pay2 v0) (k0_pay3 v3)) (k0_pay28 (k0_pay2 v0) (k0_pay3 v3))
/-- Row group 5: the eight rows of column sums for filters 40 .. 47, as the body assembles them. -/
def rows5 (v0 : Vec F S288x1024 .f32) (v3 : Vec F S288x64 .f32) : FVec F S8x1024 .f32 :=
  k0_pay39 (k0_pay31 (k0_pay30 (k0_pay2 v0) (k0_pay3 v3))) (k0_pay32 (k0_pay2 v0) (k0_pay3 v3)) (k0_pay33 (k0_pay2 v0) (k0_pay3 v3)) (k0_pay34 (k0_pay2 v0) (k0_pay3 v3)) (k0_pay35 (k0_pay2 v0) (k0_pay3 v3)) (k0_pay36 (k0_pay2 v0) (k0_pay3 v3)) (k0_pay37 (k0_pay2 v0) (k0_pay3 v3)) (k0_pay38 (k0_pay2 v0) (k0_pay3 v3))
/-- Row group 6: the eight rows of column sums for filters 48 .. 55, as the body assembles them. -/
def rows6 (v0 : Vec F S288x1024 .f32) (v3 : Vec F S288x64 .f32) : FVec F S8x1024 .f32 :=
  k0_pay47 (k0_pay2 v0) (k0_pay3 v3) (k0_pay40 (k0_pay2 v0) (k0_pay3 v3)) (k0_pay41 (k0_pay2 v0) (k0_pay3 v3)) (k0_pay42 (k0_pay2 v0) (k0_pay3 v3)) (k0_pay43 (k0_pay2 v0) (k0_pay3 v3)) (k0_pay44 (k0_pay2 v0) (k0_pay3 v3)) (k0_pay45 (k0_pay2 v0) (k0_pay3 v3)) (k0_pay46 (k0_pay2 v0) (k0_pay3 v3))
/-- Row group 7: the eight rows of column sums for filters 56 .. 63, as the body assembles them. -/
def rows7 (v0 : Vec F S288x1024 .f32) (v3 : Vec F S288x64 .f32) : FVec F S8x1024 .f32 :=
  k0_pay1 (k0_pay2 v0) (k0_pay3 v3) (k0_pay48 (k0_pay2 v0) (k0_pay3 v3)) (k0_pay49 (k0_pay2 v0) (k0_pay3 v3)) (k0_pay50 (k0_pay2 v0) (k0_pay3 v3)) (k0_pay51 (k0_pay2 v0) (k0_pay3 v3)) (k0_pay52 (k0_pay2 v0) (k0_pay3 v3)) (k0_pay53 (k0_pay2 v0) (k0_pay3 v3))

/-- The output tile after the body: the canonical array of the eight row-group stores (last store first). -/
def outTile (x0 : Vec F S288x1024 .f32) (x1 : Vec F S288x64 .f32) : Vec F S64x1024 .f32 :=
  View.canon [⟨rRows7, rows7 (View.ld x0 rPatch) (View.ld x1 rFilt)⟩,
    ⟨rRows6, rows6 (View.ld x0 rPatch) (View.ld x1 rFilt)⟩,
    ⟨rRows5, rows5 (View.ld x0 rPatch) (View.ld x1 rFilt)⟩,
    ⟨rRows4, rows4 (View.ld x0 rPatch) (View.ld x1 rFilt)⟩,
    ⟨rRows3, rows3 (View.ld x0 rPatch) (View.ld x1 rFilt)⟩,
    ⟨rRows2, rows2 (View.ld x0 rPatch) (View.ld x1 rFilt)⟩,
    ⟨rRows1, rows1 (View.ld x0 rPatch) (View.ld x1 rFilt)⟩,
    ⟨rRows0, rows0 (View.ld x0 rPatch) (View.ld x1 rFilt)⟩]

/-- The eight row groups tile the 64 rows, so every index of the output tile lies in one of them. -/
theorem outTile_cover (p0 p1 p2 p3 p4 p5 p6 p7 : Vec F S8x1024 .f32) (y : S64x1024.Idx) :
    ∃ pc ∈ ([⟨rRows7, p7⟩, ⟨rRows6, p6⟩, ⟨rRows5, p5⟩, ⟨rRows4, p4⟩, ⟨rRows3, p3⟩, ⟨rRows2, p2⟩, ⟨rRows1, p1⟩, ⟨rRows0, p0⟩] : List (View.Piece (Elt F) S64x1024 .f32)), y ∈ pc.1.set :=
  View.cover_of_tiled [⟨rRows7, p7⟩, ⟨rRows6, p6⟩, ⟨rRows5, p5⟩, ⟨rRows4, p4⟩, ⟨rRows3, p3⟩, ⟨rRows2, p2⟩, ⟨rRows1, p1⟩, ⟨rRows0, p0⟩] S8x1024.size (by rfl) y

/-! ## The body's triple -/

set_option maxHeartbeats 4000000 in
/-- The body on whole staging buffers — the patch tile at `x0`, the filter matrix at `x1`, the output tile at anything —
    runs to its end leaving the two inputs as they were and the output tile at `outTile x0 x1`. -/
theorem body_triple (c : Dev nD) (E : Set ℕ) (i : grid0.Coords) (arg1 : Memref sig .tc .vmem S288x1024 .f32) (harg1 : arg1.IsWhole) (arg2 : Memref sig .tc .vmem S288x64 .f32) (harg2 : arg2.IsWhole) (arg3 : Memref sig .tc .vmem S64x1024 .f32) (harg3 : arg3.IsWhole)
    (x0 : Vec F S288x1024 .f32) (x1 : Vec F S288x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outTile x0 x1)) -∗ K ⟨⟩))
      ⊢ wp frame (wpE (defs₀ (F := F)) Variants.none c none) E (cc0__l1dist_kernel i arg1 harg1 arg2 harg2 arg3 harg3) K := by
  simp only [cc0__l1dist_kernel_eq_skeleton]; unfold cc0__l1dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _ _ _ _ _ _ _ _)

end Cert.KernelIdeal.Hand

end
-- ==== Proof.IdealHost.lean ====
/-
  The host side of the program around its one kernel region.
  Before the region the host pads the image, cuts the nine shifted 32 x 32 windows, stacks and reshapes them into
  the patch matrix, and transposes patches and filters; after it the host transposes and reshapes the kernel's
  result. None of these lines writes an argument array or (after the region) an array the region stages, so the
  arguments are found and left as launched; this module states that, and reads each staged window's block at a
  grid point off the buffers as the region finds them.
-/
import proofs.«144693_j5617817223690_2_alg».proof.Proof.Gen.KernelIdeal.Launch
import proofs.«144693_j5617817223690_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before the region. -/
abbrev entry (c : Dev nD) : Valuation τ sig (Elt F) := StableHlo.after (List.flatten [hostOps0, hostOps0_1, hostOps0_2]) (fun b => m (c, b))
/-- The same read at a TensorCore reference. -/
abbrev atEntry (c : Dev nD) (b : Ref sig .tc) : Buf (Elt F) ((c : Thread nD τ).loc b) := entry m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the two host lines after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the three arrays the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_arg0 m c

/-- No host line before the region writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not, for any proof data
    whose array is the region-entry one and whose body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not, for any proof data
    whose array is the region-entry one and whose body leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run's -/

/-- For any proof data whose arrays are the region-entry contents, a run to the library's frame post — every staged
    array at what the proof data computes, every other unscoped buffer as the lines after the region leave it — leaves
    both argument arrays as launched. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (exit_arg0 m dats c)),
    (((h c).2 main_arg1 (Pipeline.mem_restRefs_of main_arg1 (by decide) (by decide))).trans (exit_arg1 m dats c))⟩) h

end Cert.KernelIdeal.Hand

end
-- ==== Proof.IdealRun.lean ====
/-
  The program's run: the pipeline's proof data, the body obligation at every grid point, and the launch.
  At grid point t the pipeline stages columns 1024 t .. 1024 t + 1023 of the transposed patch matrix and the whole
  transposed filter matrix, and writes the 64 x 1024 output tile back to the same columns of the result. The proof
  data says just that: each input's staging buffer holds its block, the output's holds the body's output tile of the
  two input blocks. The body's triple discharges the obligation at every point, and the library's launch theorem for
  a region with host lines before and after it gives the run; read at the argument arrays it is the frame claim.
-/
import proofs.«144693_j5617817223690_2_alg».proof.Proof.IdealBody
import proofs.«144693_j5617817223690_2_alg».proof.Proof.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    each input's buffer at its block and the output's at the body's output tile of the two input blocks; the
    invariant the scoped rest and the generator register, untouched; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => outTile (blockAt m c 0 t) (blockAt m c 1 t)
  Φ _ := Pipeline.ΦA spec0 c
  q _ := fullShare
  owed _ := 0

/-- The proof data's arrays are the region-entry contents. -/
theorem pdata_A (c : Dev nD) (w : Fin cfg0.W) : (pdata m 0 c).A w = atEntry m c (Pipeline.arrRef spec0 w) := by
  dsimp only [pdata]

/-- What the body leaves, window by window. -/
theorem pdata_after0 (c : Dev nD) (t : Fin cfg0.N) : (pdata m 0 c).after 0 t = blockAt m c 0 t := by dsimp only [pdata]
theorem pdata_after1 (c : Dev nD) (t : Fin cfg0.N) : (pdata m 0 c).after 1 t = blockAt m c 1 t := by dsimp only [pdata]
theorem pdata_after2 (c : Dev nD) (t : Fin cfg0.N) : (pdata m 0 c).after 2 t = outTile (blockAt m c 0 t) (blockAt m c 1 t) := by dsimp only [pdata]

/-- Each input's current staging buffer holds its block at every point, fetched there or not. -/
theorem staged0 (c : Dev nD) (t : Fin cfg0.N) (d) : (pdata m 0 c).before 0 t d = blockAt m c 0 t :=
  staged0_of m (pdata m 0 c) (pdata_A m c 0) (pdata_after0 m c) t d
theorem staged1 (c : Dev nD) (t : Fin cfg0.N) (d) : (pdata m 0 c).before 1 t d = blockAt m c 1 t :=
  staged1_of m (pdata m 0 c) (pdata_A m c 1) (pdata_after1 m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the inputs' buffers hold their blocks, so the body's triple applies; the invariant and the
    core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1]
  rw [show (pdata m 0 c).Φ t.succ = (pdata m 0 c).Φ t.castSucc from rfl,
    show (pdata m 0 c).owesAt () t.succ = (pdata m 0 c).owesAt () t.castSucc from rfl,
    pdata_after0, pdata_after1, pdata_after2]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has each
    staged array at what the library computes from the proof data and every other unscoped buffer as the two lines
    after the region leave it. -/
theorem run_main : θ_run defs (onTc (τ := τ) (main (F := F))) (s₀ m ρ) (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := tail_sub) (hfresh := tail_fresh) (hkeep := tail_keeps)
    (hmain := main_around m Variants.none) (hA := pdata_A m) (hΦ := fun _ _ => rfl)

/-- The frame: the program runs to its end without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (pdata m) (pdata_A m) (run_main m ρ)

end Cert.KernelIdeal.Hand

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«144693_j5617817223690_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibColumnStack.lean ====
/-
  Two layout facts, generic in the extents and in the element type.

  * colBroadcast_apply — an [a, 1] column repeated along b positions (a broadcast of the column to [a, b]) reads, at
                         (k, j), the column at (k, 0);
  * stack8_apply       — eight [1, b] rows stacked along the first axis (a concatenation into [8, b]) read, at (g, j),
                         the g-th row at (0, j).
-/
import Idealize.ShloMosaic.Lib.Pipeline.Value
import Idealize.ShloMosaic.Lib.ValueIdx

noncomputable section

namespace Cert.LibColumnStack

open Idealize.ShloMosaic Idealize.ShloMosaic.ValueIdx

/-- An [a, 1] column repeated along b positions reads, at (k, j), the column at (k, 0). -/
theorem colBroadcast_apply {α : Type} {a b : ℕ} (v : (⟨2, ![a, 1]⟩ : Shape).Idx → α)
    (h : (⟨2, ![a, 1]⟩ : Shape).Broadcasts ⟨2, ![a, b]⟩) (k : Fin a) (j : Fin b) :
    broadcastTo ⟨2, ![a, b]⟩ v h (ix2 k j) = v (ix2 k (0 : Fin 1)) :=
  broadcastTo_apply v h _ _ (fun ax => by
    match ax with
    | ⟨0, _⟩ =>
      show k.val = if a = 1 then 0 else k.val
      by_cases ha : a = 1
      · rw [if_pos ha]; have := k.isLt; omega
      · rw [if_neg ha]
    | ⟨1, _⟩ =>
      show (0 : ℕ) = if (1 : ℕ) = 1 then 0 else j.val
      rw [if_pos rfl])

/-- Eight [1, b] rows stacked along the first axis: row g of the stack is the g-th of them. -/
theorem stack8_apply {α : Type} {b : ℕ} (r0 r1 r2 r3 r4 r5 r6 r7 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩,
      ⟨⟨2, ![1, b]⟩, r5⟩, ⟨⟨2, ![1, b]⟩, r6⟩, ⟨⟨2, ![1, b]⟩, r7⟩] : List ((s : Shape) × (s.Idx → α))).map (·.1)) ⟨2, ![8, b]⟩ 0)
    (g : Fin 8) (j : Fin b) :
    concatenate ⟨2, ![8, b]⟩ 0 [⟨⟨2, ![1, b]⟩, r0⟩, ⟨⟨2, ![1, b]⟩, r1⟩, ⟨⟨2, ![1, b]⟩, r2⟩, ⟨⟨2, ![1, b]⟩, r3⟩, ⟨⟨2, ![1, b]⟩, r4⟩,
      ⟨⟨2, ![1, b]⟩, r5⟩, ⟨⟨2, ![1, b]⟩, r6⟩, ⟨⟨2, ![1, b]⟩, r7⟩] h (ix2 g j)
      = (![r0, r1, r2, r3, r4, r5, r6, r7] g) (ix2 (0 : Fin 1) j) := by
  have key : ∀ (k : ℕ) (hk : k < 8) (x : (⟨2, ![1, b]⟩ : Shape).Idx → α),
      ([⟨⟨2, ![1, b]⟩, r0⟩, ⟨⟨2, ![1, b]⟩, r1⟩, ⟨⟨2, ![1, b]⟩, r2⟩, ⟨⟨2, ![1, b]⟩, r3⟩, ⟨⟨2, ![1, b]⟩, r4⟩,
        ⟨⟨2, ![1, b]⟩, r5⟩, ⟨⟨2, ![1, b]⟩, r6⟩, ⟨⟨2, ![1, b]⟩, r7⟩] : List ((s : Shape) × (s.Idx → α)))[k]'(by simpa using hk) = ⟨⟨2, ![1, b]⟩, x⟩ →
      (((([⟨⟨2, ![1, b]⟩, r0⟩, ⟨⟨2, ![1, b]⟩, r1⟩, ⟨⟨2, ![1, b]⟩, r2⟩, ⟨⟨2, ![1, b]⟩, r3⟩, ⟨⟨2, ![1, b]⟩, r4⟩,
        ⟨⟨2, ![1, b]⟩, r5⟩, ⟨⟨2, ![1, b]⟩, r6⟩, ⟨⟨2, ![1, b]⟩, r7⟩] : List ((s : Shape) × (s.Idx → α))).take k).map (·.1)).map
          fun s => if h : s.rank = (⟨2, ![8, b]⟩ : Shape).rank then s.size ((0 : Fin 2).cast h.symm) else 0).sum = k →
      g.val = k →
      concatenate ⟨2, ![8, b]⟩ 0 [⟨⟨2, ![1, b]⟩, r0⟩, ⟨⟨2, ![1, b]⟩, r1⟩, ⟨⟨2, ![1, b]⟩, r2⟩, ⟨⟨2, ![1, b]⟩, r3⟩, ⟨⟨2, ![1, b]⟩, r4⟩,
        ⟨⟨2, ![1, b]⟩, r5⟩, ⟨⟨2, ![1, b]⟩, r6⟩, ⟨⟨2, ![1, b]⟩, r7⟩] h (ix2 g j) = x (ix2 (0 : Fin 1) j) := by
    intro k hk x hx hpre hg
    exact concatenate_apply_piece 0 _ h (ix2 g j) k (by simpa using hk) ⟨2, ![1, b]⟩ x hx rfl k hpre (ix2 (0 : Fin 1) j)
      (fun d hd => by
        match d with
        | ⟨0, _⟩ => exact absurd rfl hd
        | ⟨1, _⟩ => rfl)
      (by show k + 0 = g.val; omega)
  match g with
  | ⟨0, _⟩ => exact key 0 (by omega) r0 rfl rfl rfl
  | ⟨1, _⟩ => exact key 1 (by omega) r1 rfl rfl rfl
  | ⟨2, _⟩ => exact key 2 (by omega) r2 rfl rfl rfl
  | ⟨3, _⟩ => exact key 3 (by omega) r3 rfl rfl rfl
  | ⟨4, _⟩ => exact key 4 (by omega) r4 rfl rfl rfl
  | ⟨5, _⟩ => exact key 5 (by omega) r5 rfl rfl rfl
  | ⟨6, _⟩ => exact key 6 (by omega) r6 rfl rfl rfl
  | ⟨7, _⟩ => exact key 7 (by omega) r7 rfl rfl rfl

end Cert.LibColumnStack

end
-- ==== Proof.L1Rows.lean ====
/-
  The arithmetic of one output row of the L1-distance kernel, at the ideal (extended real) values.

  For a patch tile P of shape [a, b] (a window entries, b output positions) and a filter matrix Fm of shape [a, n]
  (one column per filter), the kernel forms, for filter c, the array |P - (column c of Fm, repeated along the b
  positions)|, sums it down its a rows, and lays the b sums out as a [1, b] row. Read at position j that row is
      sum over k of |P (k, j) - Fm (k, c)|,
  where |x| at the ideal values is max x (-x).
-/
import Idealize.ShloMosaic.PureOps.Ideal.Laws
import Idealize.ShloMosaic.Lib.Pipeline.Value
import Idealize.ShloMosaic.Lib.ValueIdx
import Idealize.ShloMosaic.Lib.ValueLayout
import proofs.«144693_j5617817223690_2_alg».proof.Proof.LibRowReduceProducts
import proofs.«144693_j5617817223690_2_alg».proof.Proof.LibColumnStack

noncomputable section

open scoped BigOperators

namespace Cert.L1Dist

open Idealize.ShloMosaic Idealize.ShloMosaic.ValueIdx

/-- The absolute difference of two extended reals, as both programs compute it: the larger of p - q and its negation. -/
def dist (p q : EReal) : EReal := max (p - q) (-(p - q))

/-- One output row at position j: the sum over the window entries k of |P (k, j) - Fm (k, c)|. -/
theorem l1Row_apply {a b n : ℕ} (P : FVec Ideal ⟨2, ![a, b]⟩ .bf16) (Fm : FVec Ideal ⟨2, ![a, n]⟩ .bf16)
    (c : ℕ) (hc : c < n)
    (hs : (⟨2, ![a, n]⟩ : Shape).Slices ![0, c] ⟨2, ![a, 1]⟩)
    (hb : (⟨2, ![a, 1]⟩ : Shape).Broadcasts ⟨2, ![a, b]⟩)
    (hbits : FTy.bf16.bits < FTy.f32.bits)
    (hr : Shape.Reduces ⟨2, ![a, b]⟩ [0] ⟨1, ![b]⟩) (hφ : FKind.Formats .f32)
    (hacc : (0x00000000#32 : BitVec 32) = FKind.add.neutral .f32 hφ)
    (hsc : (⟨1, ![b]⟩ : Shape).ShapeCasts ⟨2, ![1, b]⟩) (u : Fin 1) (j : Fin b) :
    shapeCast ⟨2, ![1, b]⟩
        (multiReduction .add [0] ⟨1, ![b]⟩
          (extf .f32 (absf (subf P (broadcastTo ⟨2, ![a, b]⟩ (extractStridedSlice ⟨2, ![a, 1]⟩ ![0, c] Fm hs) hb))) hbits)
          0x00000000#32 hr hφ hacc) hsc (ix2 u j)
      = ∑ k : Fin a, dist (P (ix2 k j)) (Fm (ix2 k ⟨c, hc⟩)) := by
  refine (shapeCast_a_1a_apply _ hsc u j).trans ?_
  refine (Cert.LibRowReduceProducts.colSum_apply _ hr hφ hacc j).trans ?_
  refine Finset.sum_congr rfl fun k _ => ?_
  show max (P (ix2 k j) - broadcastTo ⟨2, ![a, b]⟩ (extractStridedSlice ⟨2, ![a, 1]⟩ ![0, c] Fm hs) hb (ix2 k j))
      (-(P (ix2 k j) - broadcastTo ⟨2, ![a, b]⟩ (extractStridedSlice ⟨2, ![a, 1]⟩ ![0, c] Fm hs) hb (ix2 k j))) = _
  rw [Cert.LibColumnStack.colBroadcast_apply, slice2_axis1_apply c Fm hs k (0 : Fin 1) ⟨c, hc⟩ rfl]
  rfl

end Cert.L1Dist

end
-- ==== Proof.IdealTile.lean ====
/-
  The output tile of one call of the body, read index by index at the ideal values.
  Entry (f, j) of the 64 x 1024 tile is the L1 distance between column j of the patch tile and column f of the filter
  matrix: the sum over the 288 window entries k of |patch (k, j) - filter (k, f)|. (Rounding the two tiles to bf16 on
  the way in, and widening back before the sum, are the identity at the ideal values.) Each of the eight stored row
  groups is that function on its eight rows, so the canonical array of the eight stores is that function everywhere.
-/
import proofs.«144693_j5617817223690_2_alg».proof.Proof.IdealBody
import proofs.«144693_j5617817223690_2_alg».proof.Proof.L1Rows

set_option maxRecDepth 16384

noncomputable section

open scoped BigOperators

namespace Cert.KernelIdeal.Hand

open Cert.KernelIdeal Cert.KernelIdeal.Gen Cert.L1Dist Cert.LibColumnStack
open Idealize.ShloMosaic Idealize.ShloMosaic.ValueIdx

/-- The patch tile rounded to bf16 is, at the ideal values, the tile. -/
theorem patchRounded_apply (v0 : Vec Ideal S288x1024 .f32) (i : S288x1024.Idx) : k0_pay2 (F := Ideal) v0 i = v0 i := by
  unfold k0_pay2
  exact congrFun (shapeCast_self v0 _) i
/-- The filter matrix rounded to bf16 is, at the ideal values, the matrix. -/
theorem filtRounded_apply (v3 : Vec Ideal S288x64 .f32) (i : S288x64.Idx) : k0_pay3 (F := Ideal) v3 i = v3 i := by
  unfold k0_pay3
  exact congrFun (shapeCast_self v3 _) i

/-- A row's sum over the rounded tiles is the sum over the tiles. -/
theorem rowSum_congr (v0 : Vec Ideal S288x1024 .f32) (v3 : Vec Ideal S288x64 .f32) (f : Fin 64) (j : Fin 1024) :
    (∑ k : Fin 288, dist (k0_pay2 (F := Ideal) v0 (ix2 k j)) (k0_pay3 (F := Ideal) v3 (ix2 k f)))
      = ∑ k : Fin 288, dist (v0 (ix2 k j)) (v3 (ix2 k f)) :=
  Finset.sum_congr rfl fun k _ => by rw [patchRounded_apply, filtRounded_apply]

/-- Row group 0 at (g, j): the L1 distance between patch column j and filter 0 + g. -/
theorem rows0_apply (v0 : Vec Ideal S288x1024 .f32) (v3 : Vec Ideal S288x64 .f32) (g : Fin 8) (j : Fin 1024) :
    rows0 (F := Ideal) v0 v3 (ix2 g j) = ∑ k : Fin 288, dist (v0 (ix2 k j)) (v3 (ix2 k ⟨0 + g.val, by omega⟩)) := by
  unfold rows0 k0_pay11
  refine (stack8_apply _ _ _ _ _ _ _ _ _ g j).trans ?_
  match g with
  | ⟨0, _⟩ => exact (l1Row_apply (a := 288) (b := 1024) (n := 64) (k0_pay2 v0) (k0_pay3 v3) 0 (by omega) slices_S288x64_o0_0_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 1 (by omega) slices_S288x64_o0_1_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 2 (by omega) slices_S288x64_o0_2_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 3 (by omega) slices_S288x64_o0_3_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 4 (by omega) slices_S288x64_o0_4_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 5 (by omega) slices_S288x64_o0_5_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 6 (by omega) slices_S288x64_o0_6_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 7 (by omega) slices_S288x64_o0_7_S288x1 broadcasts_S288x1_S288x1024 bitsLt_bf16_f32 reduces_S288x1024_S1024 (.inl rfl) rfl shapeCasts_S1024_S1x1024 (0 : Fin 1) j).trans (rowSum_congr v0 v3 _ j)

/-- Row group 1 at (g, j): the L1 distance between patch column j and filter 8 + g. -/
theorem rows1_apply (v0 : Vec Ideal S288x1024 .f32) (v3 : Vec Ideal S288x64 .f32) (g : Fin 8) (j : Fin 1024) :
    rows1 (F := Ideal) v0 v3 (ix2 g j) = ∑ k : Fin 288, dist (v0 (ix2 k j)) (v3 (ix2 k ⟨8 + g.val, by omega⟩)) := by
  unfold rows1 k0_pay17
  refine (stack8_apply _ _ _ _ _ _ _ _ _ g j).trans ?_
  match g with
  | ⟨0, _⟩ => exact (l1Row_apply (a := 288) (b := 1024) (n := 64) (k0_pay2 v0) (k0_pay3 v3) 8 (by omega) slices_S288x64_o0_8_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 9 (by omega) slices_S288x64_o0_9_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 10 (by omega) slices_S288x64_o0_10_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 11 (by omega) slices_S288x64_o0_11_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 12 (by omega) slices_S288x64_o0_12_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 13 (by omega) slices_S288x64_o0_13_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 14 (by omega) slices_S288x64_o0_14_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 15 (by omega) slices_S288x64_o0_15_S288x1 broadcasts_S288x1_S288x1024 bitsLt_bf16_f32 reduces_S288x1024_S1024 (.inl rfl) rfl shapeCasts_S1024_S1x1024 (0 : Fin 1) j).trans (rowSum_congr v0 v3 _ j)

/-- Row group 2 at (g, j): the L1 distance between patch column j and filter 16 + g. -/
theorem rows2_apply (v0 : Vec Ideal S288x1024 .f32) (v3 : Vec Ideal S288x64 .f32) (g : Fin 8) (j : Fin 1024) :
    rows2 (F := Ideal) v0 v3 (ix2 g j) = ∑ k : Fin 288, dist (v0 (ix2 k j)) (v3 (ix2 k ⟨16 + g.val, by omega⟩)) := by
  unfold rows2 k0_pay22
  refine (stack8_apply _ _ _ _ _ _ _ _ _ g j).trans ?_
  match g with
  | ⟨0, _⟩ => exact (l1Row_apply (a := 288) (b := 1024) (n := 64) (k0_pay2 v0) (k0_pay3 v3) 16 (by omega) slices_S288x64_o0_16_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 17 (by omega) slices_S288x64_o0_17_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 18 (by omega) slices_S288x64_o0_18_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 19 (by omega) slices_S288x64_o0_19_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 20 (by omega) slices_S288x64_o0_20_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 21 (by omega) slices_S288x64_o0_21_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 22 (by omega) slices_S288x64_o0_22_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 23 (by omega) slices_S288x64_o0_23_S288x1 broadcasts_S288x1_S288x1024 bitsLt_bf16_f32 reduces_S288x1024_S1024 (.inl rfl) rfl shapeCasts_S1024_S1x1024 (0 : Fin 1) j).trans (rowSum_congr v0 v3 _ j)

/-- Row group 3 at (g, j): the L1 distance between patch column j and filter 24 + g. -/
theorem rows3_apply (v0 : Vec Ideal S288x1024 .f32) (v3 : Vec Ideal S288x64 .f32) (g : Fin 8) (j : Fin 1024) :
    rows3 (F := Ideal) v0 v3 (ix2 g j) = ∑ k : Fin 288, dist (v0 (ix2 k j)) (v3 (ix2 k ⟨24 + g.val, by omega⟩)) := by
  unfold rows3 k0_pay26
  refine (stack8_apply _ _ _ _ _ _ _ _ _ g j).trans ?_
  match g with
  | ⟨0, _⟩ => exact (l1Row_apply (a := 288) (b := 1024) (n := 64) (k0_pay2 v0) (k0_pay3 v3) 24 (by omega) slices_S288x64_o0_24_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 25 (by omega) slices_S288x64_o0_25_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 26 (by omega) slices_S288x64_o0_26_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 27 (by omega) slices_S288x64_o0_27_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 28 (by omega) slices_S288x64_o0_28_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 29 (by omega) slices_S288x64_o0_29_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 30 (by omega) slices_S288x64_o0_30_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 31 (by omega) slices_S288x64_o0_31_S288x1 broadcasts_S288x1_S288x1024 bitsLt_bf16_f32 reduces_S288x1024_S1024 (.inl rfl) rfl shapeCasts_S1024_S1x1024 (0 : Fin 1) j).trans (rowSum_congr v0 v3 _ j)

/-- Row group 4 at (g, j): the L1 distance between patch column j and filter 32 + g. -/
theorem rows4_apply (v0 : Vec Ideal S288x1024 .f32) (v3 : Vec Ideal S288x64 .f32) (g : Fin 8) (j : Fin 1024) :
    rows4 (F := Ideal) v0 v3 (ix2 g j) = ∑ k : Fin 288, dist (v0 (ix2 k j)) (v3 (ix2 k ⟨32 + g.val, by omega⟩)) := by
  unfold rows4 k0_pay29
  refine (stack8_apply _ _ _ _ _ _ _ _ _ g j).trans ?_
  match g with
  | ⟨0, _⟩ => exact (l1Row_apply (a := 288) (b := 1024) (n := 64) (k0_pay2 v0) (k0_pay3 v3) 32 (by omega) slices_S288x64_o0_32_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 33 (by omega) slices_S288x64_o0_33_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 34 (by omega) slices_S288x64_o0_34_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 35 (by omega) slices_S288x64_o0_35_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 36 (by omega) slices_S288x64_o0_36_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 37 (by omega) slices_S288x64_o0_37_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 38 (by omega) slices_S288x64_o0_38_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 39 (by omega) slices_S288x64_o0_39_S288x1 broadcasts_S288x1_S288x1024 bitsLt_bf16_f32 reduces_S288x1024_S1024 (.inl rfl) rfl shapeCasts_S1024_S1x1024 (0 : Fin 1) j).trans (rowSum_congr v0 v3 _ j)

/-- Row group 5 at (g, j): the L1 distance between patch column j and filter 40 + g. -/
theorem rows5_apply (v0 : Vec Ideal S288x1024 .f32) (v3 : Vec Ideal S288x64 .f32) (g : Fin 8) (j : Fin 1024) :
    rows5 (F := Ideal) v0 v3 (ix2 g j) = ∑ k : Fin 288, dist (v0 (ix2 k j)) (v3 (ix2 k ⟨40 + g.val, by omega⟩)) := by
  unfold rows5 k0_pay39
  refine (stack8_apply _ _ _ _ _ _ _ _ _ g j).trans ?_
  match g with
  | ⟨0, _⟩ => exact (l1Row_apply (a := 288) (b := 1024) (n := 64) (k0_pay2 v0) (k0_pay3 v3) 40 (by omega) slices_S288x64_o0_40_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 41 (by omega) slices_S288x64_o0_41_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 42 (by omega) slices_S288x64_o0_42_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 43 (by omega) slices_S288x64_o0_43_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 44 (by omega) slices_S288x64_o0_44_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 45 (by omega) slices_S288x64_o0_45_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 46 (by omega) slices_S288x64_o0_46_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 47 (by omega) slices_S288x64_o0_47_S288x1 broadcasts_S288x1_S288x1024 bitsLt_bf16_f32 reduces_S288x1024_S1024 (.inl rfl) rfl shapeCasts_S1024_S1x1024 (0 : Fin 1) j).trans (rowSum_congr v0 v3 _ j)

/-- Row group 6 at (g, j): the L1 distance between patch column j and filter 48 + g. -/
theorem rows6_apply (v0 : Vec Ideal S288x1024 .f32) (v3 : Vec Ideal S288x64 .f32) (g : Fin 8) (j : Fin 1024) :
    rows6 (F := Ideal) v0 v3 (ix2 g j) = ∑ k : Fin 288, dist (v0 (ix2 k j)) (v3 (ix2 k ⟨48 + g.val, by omega⟩)) := by
  unfold rows6 k0_pay47
  refine (stack8_apply _ _ _ _ _ _ _ _ _ g j).trans ?_
  match g with
  | ⟨0, _⟩ => exact (l1Row_apply (a := 288) (b := 1024) (n := 64) (k0_pay2 v0) (k0_pay3 v3) 48 (by omega) slices_S288x64_o0_48_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 49 (by omega) slices_S288x64_o0_49_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 50 (by omega) slices_S288x64_o0_50_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 51 (by omega) slices_S288x64_o0_51_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 52 (by omega) slices_S288x64_o0_52_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 53 (by omega) slices_S288x64_o0_53_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 54 (by omega) slices_S288x64_o0_54_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 55 (by omega) slices_S288x64_o0_55_S288x1 broadcasts_S288x1_S288x1024 bitsLt_bf16_f32 reduces_S288x1024_S1024 (.inl rfl) rfl shapeCasts_S1024_S1x1024 (0 : Fin 1) j).trans (rowSum_congr v0 v3 _ j)

/-- Row group 7 at (g, j): the L1 distance between patch column j and filter 56 + g. -/
theorem rows7_apply (v0 : Vec Ideal S288x1024 .f32) (v3 : Vec Ideal S288x64 .f32) (g : Fin 8) (j : Fin 1024) :
    rows7 (F := Ideal) v0 v3 (ix2 g j) = ∑ k : Fin 288, dist (v0 (ix2 k j)) (v3 (ix2 k ⟨56 + g.val, by omega⟩)) := by
  unfold rows7 k0_pay1
  refine (stack8_apply _ _ _ _ _ _ _ _ _ g j).trans ?_
  match g with
  | ⟨0, _⟩ => exact (l1Row_apply (a := 288) (b := 1024) (n := 64) (k0_pay2 v0) (k0_pay3 v3) 56 (by omega) slices_S288x64_o0_56_S288x1 broadcasts_S288x1_S288x1024 bitsLt_bf16_f32 reduces_S288x1024_S1024 (.inl rfl) rfl shapeCasts_S1024_S1x1024 (0 : Fin 1) j).trans (rowSum_congr v0 v3 _ j)
  | ⟨1, _⟩ => exact (l1Row_apply (a := 288) (b := 1024) (n := 64) (k0_pay2 v0) (k0_pay3 v3) 57 (by omega) slices_S288x64_o0_57_S288x1 broadcasts_S288x1_S288x1024 bitsLt_bf16_f32 reduces_S288x1024_S1024 (.inl rfl) rfl shapeCasts_S1024_S1x1024 (0 : Fin 1) j).trans (rowSum_congr v0 v3 _ j)
  | ⟨2, _⟩ => exact (l1Row_apply (a := 288) (b := 1024) (n := 64) (k0_pay2 v0) (k0_pay3 v3) 58 (by omega) slices_S288x64_o0_58_S288x1 broadcasts_S288x1_S288x1024 bitsLt_bf16_f32 reduces_S288x1024_S1024 (.inl rfl) rfl shapeCasts_S1024_S1x1024 (0 : Fin 1) j).trans (rowSum_congr v0 v3 _ j)
  | ⟨3, _⟩ => exact (l1Row_apply (a := 288) (b := 1024) (n := 64) (k0_pay2 v0) (k0_pay3 v3) 59 (by omega) slices_S288x64_o0_59_S288x1 broadcasts_S288x1_S288x1024 bitsLt_bf16_f32 reduces_S288x1024_S1024 (.inl rfl) rfl shapeCasts_S1024_S1x1024 (0 : Fin 1) j).trans (rowSum_congr v0 v3 _ j)
  | ⟨4, _⟩ => exact (l1Row_apply (a := 288) (b := 1024) (n := 64) (k0_pay2 v0) (k0_pay3 v3) 60 (by omega) slices_S288x64_o0_60_S288x1 broadcasts_S288x1_S288x1024 bitsLt_bf16_f32 reduces_S288x1024_S1024 (.inl rfl) rfl shapeCasts_S1024_S1x1024 (0 : Fin 1) j).trans (rowSum_congr v0 v3 _ j)
  | ⟨5, _⟩ => exact (l1Row_apply (a := 288) (b := 1024) (n := 64) (k0_pay2 v0) (k0_pay3 v3) 61 (by omega) slices_S288x64_o0_61_S288x1 broadcasts_S288x1_S288x1024 bitsLt_bf16_f32 reduces_S288x1024_S1024 (.inl rfl) rfl shapeCasts_S1024_S1x1024 (0 : Fin 1) j).trans (rowSum_congr v0 v3 _ j)
  | ⟨6, _⟩ => exact (l1Row_apply (a := 288) (b := 1024) (n := 64) (k0_pay2 v0) (k0_pay3 v3) 62 (by omega) slices_S288x64_o0_62_S288x1 broadcasts_S288x1_S288x1024 bitsLt_bf16_f32 reduces_S288x1024_S1024 (.inl rfl) rfl shapeCasts_S1024_S1x1024 (0 : Fin 1) j).trans (rowSum_congr v0 v3 _ j)
  | ⟨7, _⟩ => exact (l1Row_apply (a := 288) (b := 1024) (n := 64) (k0_pay2 v0) (k0_pay3 v3) 63 (by omega) slices_S288x64_o0_63_S288x1 broadcasts_S288x1_S288x1024 bitsLt_bf16_f32 reduces_S288x1024_S1024 (.inl rfl) rfl shapeCasts_S1024_S1x1024 (0 : Fin 1) j).trans (rowSum_congr v0 v3 _ j)

/-- The zero offsets, as the body's whole-tile loads spell them. -/
theorem zeroOff : (![0, 0] : Fin 2 → Nat) = fun _ => 0 := funext fun a => by fin_cases a <;> rfl

/-- The L1 distance between column j of a patch tile and column f of a filter matrix. -/
def tileDist (x0 : Vec Ideal S288x1024 .f32) (x1 : Vec Ideal S288x64 .f32) (f : Fin 64) (j : Fin 1024) : EReal :=
  ∑ k : Fin 288, dist (x0 (ix2 k j)) (x1 (ix2 k f))

/-- THE OUTPUT TILE, index by index: entry (f, j) is the L1 distance between patch column j and filter column f. -/
theorem outTile_apply (x0 : Vec Ideal S288x1024 .f32) (x1 : Vec Ideal S288x64 .f32) (y : S64x1024.Idx) :
    outTile (F := Ideal) x0 x1 y = tileDist x0 x1 ⟨(y 0).val, (y 0).isLt⟩ ⟨(y 1).val, (y 1).isLt⟩ := by
  unfold outTile
  simp only [View.ld_unit_zero (S := S288x1024) zeroOff, View.ld_unit_zero (S := S288x64) zeroOff]
  refine View.canon_apply_of_pieces (Val := Elt Ideal) (e := .f32) (fun y : S64x1024.Idx => tileDist x0 x1 ⟨(y 0).val, (y 0).isLt⟩ ⟨(y 1).val, (y 1).isLt⟩) _ ?_ y (outTile_cover _ _ _ _ _ _ _ _ y)
  intro p hp x
  simp only [List.mem_cons, List.mem_nil_iff, or_false] at hp
  rcases hp with rfl | rfl | rfl | rfl | rfl | rfl | rfl | rfl
  · obtain ⟨g, j, rfl⟩ : ∃ (g : Fin 8) (j : Fin 1024), x = ix2 g j := ⟨x 0, x 1, eq_ix2 x⟩
    refine (rows7_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 56 + g.val = 56 + 1 * g.val; omega))))
  · obtain ⟨g, j, rfl⟩ : ∃ (g : Fin 8) (j : Fin 1024), x = ix2 g j := ⟨x 0, x 1, eq_ix2 x⟩
    refine (rows6_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 48 + g.val = 48 + 1 * g.val; omega))))
  · obtain ⟨g, j, rfl⟩ : ∃ (g : Fin 8) (j : Fin 1024), x = ix2 g j := ⟨x 0, x 1, eq_ix2 x⟩
    refine (rows5_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 40 + g.val = 40 + 1 * g.val; omega))))
  · obtain ⟨g, j, rfl⟩ : ∃ (g : Fin 8) (j : Fin 1024), x = ix2 g j := ⟨x 0, x 1, eq_ix2 x⟩
    refine (rows4_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 32 + g.val = 32 + 1 * g.val; omega))))
  · obtain ⟨g, j, rfl⟩ : ∃ (g : Fin 8) (j : Fin 1024), x = ix2 g j := ⟨x 0, x 1, eq_ix2 x⟩
    refine (rows3_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 24 + g.val = 24 + 1 * g.val; omega))))
  · obtain ⟨g, j, rfl⟩ : ∃ (g : Fin 8) (j : Fin 1024), x = ix2 g j := ⟨x 0, x 1, eq_ix2 x⟩
    refine (rows2_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 16 + g.val = 16 + 1 * g.val; omega))))
  · obtain ⟨g, j, rfl⟩ : ∃ (g : Fin 8) (j : Fin 1024), x = ix2 g j := ⟨x 0, x 1, eq_ix2 x⟩
    refine (rows1_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 8 + g.val = 8 + 1 * g.val; omega))))
  · obtain ⟨g, j, rfl⟩ : ∃ (g : Fin 8) (j : Fin 1024), x = ix2 g j := ⟨x 0, x 1, eq_ix2 x⟩
    refine (rows0_apply x0 x1 g j).trans ?_
    exact Finset.sum_congr rfl fun k _ => congrArg₂ dist (congrArg x0 (congrArg (ix2 k) (Fin.ext (by show j.val = 0 + 1 * j.val; omega))))
      (congrArg x1 (congrArg (ix2 k) (Fin.ext (by show 0 + g.val = 0 + 1 * g.val; omega))))

end Cert.KernelIdeal.Hand

end
-- ==== Proof.IdealValue.lean ====
/-
  The kernel program's result, read off its run at the ideal values.
  Grid point t stages columns 1024 t .. 1024 t + 1023 of the transposed patch matrix Pt ([288, 8192]) and the whole
  transposed filter matrix Ft ([288, 64]), and writes the output tile to the same columns of the [64, 8192] result; so
  what point t writes back is block t of ONE function of (Pt, Ft): entry (f, q) is the L1 distance between column q of
  Pt and column f of Ft. The eight blocks tile the result, hence the result array IS that function, and the two host
  lines after the region transpose it and reshape it to [8, 32, 32, 64].
-/
import proofs.«144693_j5617817223690_2_alg».proof.Proof.IdealRun
import proofs.«144693_j5617817223690_2_alg».proof.Proof.IdealTile
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen Cert.L1Dist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The L1 distances of every column of a transposed patch matrix to every column of a transposed filter matrix, as a
    [64, 8192] array: entry (f, q) is the sum over the 288 window entries k of |Pt (k, q) - Ft (k, f)|. -/
def l1T (Pt : S288x8192.Idx → Elt Ideal .f32) (Ft : S288x64.Idx → Elt Ideal .f32) : S64x8192.Idx → Elt Ideal .f32 :=
  fun i => ∑ k : Fin 288, dist (Pt (ix2 k ⟨(i 1).val, (i 1).isLt⟩)) (Ft (ix2 k ⟨(i 0).val, (i 0).isLt⟩))

/-- The printed index maps over the eight grid points: the patch window and the output window move together along the
    columns, one block per point; the filter window stays put. -/
theorem idx_facts : ∀ t : Fin cfg0.N, win0_0.index t (0 : Fin 2) = 0 ∧ win0_0.index t (1 : Fin 2) = win0_2.index t (1 : Fin 2)
    ∧ win0_1.index t (0 : Fin 2) = 0 ∧ win0_1.index t (1 : Fin 2) = 0
    ∧ win0_2.index t (0 : Fin 2) = 0 ∧ win0_2.index t (1 : Fin 2) ≤ 7 :=
  (by decide +kernel : ∀ t : Fin grid0.N, _)

/-- Every column block of the result is some point's. -/
theorem idx_onto : ∀ (q : Fin 8), ∃ t : Fin cfg0.N, win0_2.index t = ![0, q.val] :=
  (by decide +kernel : ∀ (q : Fin 8), ∃ t : Fin grid0.N, win0_2.index t = ![0, q.val])

/-- WHAT POINT t WRITES BACK is block t of the L1 distances of the two staged arrays as the region finds them. -/
theorem flushed_eq (c : Dev nD) (t : Fin cfg0.N) :
    (pdata m 0 c).flushed 2 t = ((cfg0.win 2).blk t).view.read (Elt Ideal) (l1T (atEntry m c main_v23) (atEntry m c main_v24)) := by
  show (cfg0.win 2).cut (grid0.coords t) ((pdata m 0 c).after 2 t) = _
  rw [pdata_after2]
  obtain ⟨e0, e1, e2, e3, e4, e5⟩ := idx_facts t
  funext y
  show outTile (blockAt m c 0 t) (blockAt m c 1 t) y = l1T (atEntry m c main_v23) (atEntry m c main_v24) (((cfg0.win 2).blk t).view.emb y)
  refine (outTile_apply (blockAt m c 0 t) (blockAt m c 1 t) y).trans ?_
  unfold tileDist l1T
  refine Finset.sum_congr rfl fun k _ => ?_
  show dist (atEntry m c main_v23 (((cfg0.win 0).blk t).view.emb (ix2 k ⟨(y 1).val, (y 1).isLt⟩)))
      (atEntry m c main_v24 (((cfg0.win 1).blk t).view.emb (ix2 k ⟨(y 0).val, (y 0).isLt⟩))) = _
  have h0 : ((cfg0.win 0).blk t).view.emb (ix2 k ⟨(y 1).val, (y 1).isLt⟩)
      = ix2 k ⟨((((cfg0.win 2).blk t).view.emb y) 1).val, ((((cfg0.win 2).blk t).view.emb y) 1).isLt⟩ := by
    funext a; apply Fin.ext
    match a with
    | ⟨0, _⟩ => show win0_0.index t (0 : Fin 2) * 288 + 1 * k.val = k.val; omega
    | ⟨1, _⟩ => show win0_0.index t (1 : Fin 2) * 1024 + 1 * (y 1).val = win0_2.index t (1 : Fin 2) * 1024 + 1 * (y 1).val; omega
  have h1 : ((cfg0.win 1).blk t).view.emb (ix2 k ⟨(y 0).val, (y 0).isLt⟩)
      = ix2 k ⟨((((cfg0.win 2).blk t).view.emb y) 0).val, ((((cfg0.win 2).blk t).view.emb y) 0).isLt⟩ := by
    funext a; apply Fin.ext
    match a with
    | ⟨0, _⟩ => show win0_1.index t (0 : Fin 2) * 288 + 1 * k.val = k.val; omega
    | ⟨1, _⟩ => show win0_1.index t (1 : Fin 2) * 64 + 1 * (y 0).val = win0_2.index t (0 : Fin 2) * 64 + 1 * (y 0).val; omega
  rw [h0, h1]
  rfl

/-- An index of the result is in point t's block iff each coordinate is in the block's range on its axis. -/
theorem mem_blk (t : Fin cfg0.N) (i : S64x8192.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v25).slice (win0_2.rect t)).set ↔ _
  rw [View.set_slice_whole, Rect.mem_set_unit]
  exact Iff.rfl

/-- The eight blocks cover the result: column q lies in the block of the point whose block index is q / 1024. -/
theorem covered (i : S64x8192.Idx) : ∃ t : Fin cfg0.N, (cfg0.win 2).flush t = true ∧ i ∈ ((cfg0.win 2).blk t).view.set := by
  have hi0 : (i 0).val < 64 := (i 0).isLt
  have hi1 : (i 1).val < 8192 := (i 1).isLt
  obtain ⟨t, ht⟩ := idx_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 1024 ≤ (i 1).val ∧ (i 1).val < win0_2.index t (1 : Fin 2) * 1024 + 1024; omega

/-- THE RESULT ARRAY after the region: the L1 distances of the two staged arrays. -/
theorem final (c : Dev nD) : (pdata m 0 c).arrAt 2 cfg0.N = l1T (atEntry m c main_v23) (atEntry m c main_v24) :=
  (pdata m 0 c).arrAt_eq_of_cover 2 _ (fun t _ => flushed_eq m c t) covered

/-- What the two host lines after the region leave in the program's result: the L1 distances transposed to [8192, 64]
    and reshaped to [8, 32, 32, 64]. -/
theorem result_eq (c : Dev nD) :
    Pipeline.afterTail₀ cfgs (pdata m) 0 (entry m) [hostOps1] c main_v27
      = shapeCast S8x32x32x64 (transpose S8192x64 [1, 0] (l1T (atEntry m c main_v23) (atEntry m c main_v24)) transposes_S64x8192_S8192x64_1_0) shapeCasts_S8192x64_S8x32x32x64 := by
  unfold Pipeline.afterTail₀
  show StableHlo.after hostOps1 _ (Proc.devRef .tc main_v27) = _
  after_results
  have hw : Pipeline.withArrays (cfgs 0).spec c (entry m c) (fun w => (pdata m 0 c).arrAt w (cfgs 0).N) (Proc.devRef .tc main_v25)
      = l1T (atEntry m c main_v23) (atEntry m c main_v24) :=
    (Pipeline.withArrays_arr spec0 launch0.win.arr_inj c _ _ 2).trans (final m c)
  rw [hw]
  rfl

end Cert.KernelIdeal.Hand

end
-- ==== Proof.IdealEntry.lean ====
/-
  What the region finds in the two arrays it stages as inputs, as functions of the program's arguments.
  The host pads the image by one pixel on each side of its two spatial axes, cuts the nine 32 x 32 windows shifted by
  (dh, dw) in {0,1,2} x {0,1,2}, stacks them on a new axis and flattens (dh, dw, channel) into 288 window entries: the
  patch stack, [8, 32, 32, 288]. Window 0's array is the patch stack flattened to [8192, 288] and transposed; window
  1's array is the filters flattened to [64, 288] and transposed.
-/
import proofs.«144693_j5617817223690_2_alg».proof.Proof.IdealHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The patch stack of an image: the nine shifted windows of the zero-padded image, stacked and flattened. -/
def patchStack (X : FVec F S8x32x32x32 .f32) : FVec F S8x32x32x288 .f32 :=
  shapeCast S8x32x32x288 (concatenate S8x32x32x9x32 3 [⟨S8x32x32x1x32, broadcastInDim S8x32x32x1x32 ![0, 1, 2, 4] bcast_S8x32x32x32_S8x32x32x1x32_0_1_2_4 (extractStridedSlice S8x32x32x32 ![0, 0, 0, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_0_0_0)⟩,
    ⟨S8x32x32x1x32, broadcastInDim S8x32x32x1x32 ![0, 1, 2, 4] bcast_S8x32x32x32_S8x32x32x1x32_0_1_2_4 (extractStridedSlice S8x32x32x32 ![0, 0, 1, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_0_1_0)⟩,
    ⟨S8x32x32x1x32, broadcastInDim S8x32x32x1x32 ![0, 1, 2, 4] bcast_S8x32x32x32_S8x32x32x1x32_0_1_2_4 (extractStridedSlice S8x32x32x32 ![0, 0, 2, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_0_2_0)⟩,
    ⟨S8x32x32x1x32, broadcastInDim S8x32x32x1x32 ![0, 1, 2, 4] bcast_S8x32x32x32_S8x32x32x1x32_0_1_2_4 (extractStridedSlice S8x32x32x32 ![0, 1, 0, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_1_0_0)⟩,
    ⟨S8x32x32x1x32, broadcastInDim S8x32x32x1x32 ![0, 1, 2, 4] bcast_S8x32x32x32_S8x32x32x1x32_0_1_2_4 (extractStridedSlice S8x32x32x32 ![0, 1, 1, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_1_1_0)⟩,
    ⟨S8x32x32x1x32, broadcastInDim S8x32x32x1x32 ![0, 1, 2, 4] bcast_S8x32x32x32_S8x32x32x1x32_0_1_2_4 (extractStridedSlice S8x32x32x32 ![0, 1, 2, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_1_2_0)⟩,
    ⟨S8x32x32x1x32, broadcastInDim S8x32x32x1x32 ![0, 1, 2, 4] bcast_S8x32x32x32_S8x32x32x1x32_0_1_2_4 (extractStridedSlice S8x32x32x32 ![0, 2, 0, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_2_0_0)⟩,
    ⟨S8x32x32x1x32, broadcastInDim S8x32x32x1x32 ![0, 1, 2, 4] bcast_S8x32x32x32_S8x32x32x1x32_0_1_2_4 (extractStridedSlice S8x32x32x32 ![0, 2, 1, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_2_1_0)⟩,
    ⟨S8x32x32x1x32, broadcastInDim S8x32x32x1x32 ![0, 1, 2, 4] bcast_S8x32x32x32_S8x32x32x1x32_0_1_2_4 (extractStridedSlice S8x32x32x32 ![0, 2, 2, 0] (pad S8x34x34x32 ![0, 1, 1, 0] ![0, 1, 1, 0] ![0, 0, 0, 0] X (sitofp .f32 (constantI S_ 32 0#32)) pads_S8x32x32x32_S8x34x34x32_000_110_110_000 h_S_) slices_S8x34x34x32_S8x32x32x32_0_2_2_0)⟩]
    concatenates_S8x32x32x1x32_S8x32x32x1x32_S8x32x32x1x32_S8x32x32x1x32_S8x32x32x1x32_S8x32x32x1x32_S8x32x32x1x32_S8x32x32x1x32_S8x32x32x1x32_S8x32x32x9x32_d3) shapeCasts_S8x32x32x9x32_S8x32x32x288

/-- Window 0's array at region entry: the patch stack of argument 0 as an [8192, 288] matrix, transposed. -/
theorem entry_patches (c : Dev nD) : (atEntry m c main_v23 : S288x8192.Idx → Elt F .f32) =
    transpose S288x8192 [1, 0] (shapeCast S8192x288 (patchStack (m ((c : Thread nD τ).loc main_arg0))) shapeCasts_S8x32x32x288_S8192x288) transposes_S8192x288_S288x8192_1_0 := by
  dsimp only [atEntry, entry]
  simp only [hostOps0, hostOps0_1, hostOps0_2, List.flatten_cons, List.flatten_nil, List.append_nil, List.cons_append, List.nil_append]
  after_results
  rfl

/-- Window 1's array at region entry: argument 1 as a [64, 288] matrix, transposed. -/
theorem entry_filters (c : Dev nD) : (atEntry m c main_v24 : S288x64.Idx → Elt F .f32) =
    transpose S288x64 [1, 0] (shapeCast S64x288 (m ((c : Thread nD τ).loc main_arg1)) shapeCasts_S64x3x3x32_S64x288) transposes_S64x288_S288x64_1_0 := by
  dsimp only [atEntry, entry]
  simp only [hostOps0, hostOps0_1, hostOps0_2, List.flatten_cons, List.flatten_nil, List.append_nil, List.cons_append, List.nil_append]
  after_results
  rfl

end Cert.KernelIdeal.Hand

end
-- ==== Proof.IdealResult.lean ====
/-
  The kernel program's run with its result named as a function of the two arguments: the L1 distances between the
  columns of the transposed patch matrix of argument 0 and the columns of the transposed filter matrix of argument 1,
  transposed to [8192, 64] and reshaped to [8, 32, 32, 64]; both arguments end as launched.
-/
import proofs.«144693_j5617817223690_2_alg».proof.Proof.IdealValue
import proofs.«144693_j5617817223690_2_alg».proof.Proof.IdealEntry

set_option maxRecDepth 16384

noncomputable section

namespace Cert.KernelIdeal.Hand

open Cert.KernelIdeal Cert.KernelIdeal.Gen Cert.L1Dist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The program's result as a function of its two arguments. -/
def resultOf (X : FVec Ideal S8x32x32x32 .f32) (W : FVec Ideal S64x3x3x32 .f32) : FVec Ideal S8x32x32x64 .f32 :=
  shapeCast S8x32x32x64 (transpose S8192x64 [1, 0]
        (l1T (transpose S288x8192 [1, 0] (shapeCast S8192x288 (patchStack X) shapeCasts_S8x32x32x288_S8192x288) transposes_S8192x288_S288x8192_1_0)
          (transpose S288x64 [1, 0] (shapeCast S64x288 W shapeCasts_S64x3x3x32_S64x288) transposes_S64x288_S288x64_1_0))
        transposes_S64x8192_S8192x64_1_0) shapeCasts_S8192x64_S8x32x32x64

/-- Every weakly fair execution of the kernel program terminates with its result at `resultOf` of the launch contents
    of the two arguments, and the arguments unchanged. -/
theorem run_value : θ_run defs (onTc (τ := τ) (main (F := Ideal))) ⟨m, fun _ => 0, ρ⟩ (fun r => ∀ c : Dev nD,
      r.2.mem ((c.tc : Thread nD τ).loc main_v27) = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v27 (Pipeline.mem_restRefs_of main_v27 (by decide) (by decide))).trans ((result_eq m c).trans (by
        rw [entry_patches, entry_filters]; rfl)),
      ((h c).2 main_arg0 (Pipeline.mem_restRefs_of main_arg0 (by decide) (by decide))).trans (exit_arg0 m (pdata m) c),
      ((h c).2 main_arg1 (Pipeline.mem_restRefs_of main_arg1 (by decide) (by decide))).trans (exit_arg1 m (pdata m) c)⟩)
    (run_main (F := Ideal) m ρ)

end Cert.KernelIdeal.Hand

end
-- ==== Proof.L1Core.lean ====
/-
  The L1-distance matrix, as one function of the patch matrix and the filter matrix.
  For a patch matrix P of shape [8192, 288] (one row per output position, 288 window entries) and a filter matrix Fm
  of shape [64, 288] (one row per filter), entry (q, f) is the sum over the window entries k of |P (q, k) - Fm (f, k)|.
  Both programs compute this matrix; they differ only in how they lay the operands out.
-/
import Idealize.ShloMosaic.Lib.ValueIdx
import proofs.«144693_j5617817223690_2_alg».proof.Proof.L1Rows

noncomputable section

open scoped BigOperators

namespace Cert.L1Dist

open Idealize.ShloMosaic Idealize.ShloMosaic.ValueIdx

/-- The L1 distance of every patch (row of P) to every filter (row of Fm). -/
def l1 (P : (⟨2, ![8192, 288]⟩ : Shape).Idx → EReal) (Fm : (⟨2, ![64, 288]⟩ : Shape).Idx → EReal) :
    (⟨2, ![8192, 64]⟩ : Shape).Idx → EReal :=
  fun i => ∑ k : Fin 288, dist (P (ix2 ⟨(i 0).val, (i 0).isLt⟩ k)) (Fm (ix2 ⟨(i 1).val, (i 1).isLt⟩ k))

end Cert.L1Dist

end
-- ==== Proof.RefL1.lean ====
/-
  The reference program's result, read at the ideal values.
  The reference flattens the patch stack to [8192, 1, 288] and the filters to [64, 288], repeats both to
  [8192, 64, 288], subtracts, takes absolute values and sums the last axis from zero: entry (q, f) of the [8192, 64]
  sum is the L1 distance of patch q to filter f. Its last line reshapes that matrix to [8, 32, 32, 64].
-/
import proofs.«144693_j5617817223690_2_alg».proof.Proof.Gen.ReferenceIdeal.Read
import proofs.«144693_j5617817223690_2_alg».proof.Proof.L1Core
import Idealize.ShloMosaic.Lib.ValueIdx

noncomputable section

open scoped BigOperators

namespace Cert.ReferenceIdeal.RefL1

open Cert.ReferenceIdeal Cert.ReferenceIdeal.Gen Cert.ReferenceIdeal.Read Cert.L1Dist
open Idealize.ShloMosaic Idealize.ShloMosaic.ValueIdx

/-- The reference's patch matrix: its [8192, 1, 288] reshape of the patch stack, read with the unit axis at 0. -/
def patchRows (X : (⟨S8x32x32x32, .f32⟩ : BufTy).Contents (Elt Ideal)) : (⟨2, ![8192, 288]⟩ : Shape).Idx → EReal :=
  fun i => val_main_v22 (F := Ideal) X (ix3 ⟨(i 0).val, (i 0).isLt⟩ (0 : Fin 1) ⟨(i 1).val, (i 1).isLt⟩)

/-- The reference's [8192, 64] sum is the L1-distance matrix of its patch matrix and its [64, 288] filter matrix. -/
theorem distances_eq (X : (⟨S8x32x32x32, .f32⟩ : BufTy).Contents (Elt Ideal)) (W : (⟨S64x3x3x32, .f32⟩ : BufTy).Contents (Elt Ideal)) :
    val_main_v28 (F := Ideal) X W = l1 (patchRows X) (val_main_v21 (F := Ideal) W) := by
  funext i
  rw [val_main_v28_apply]
  unfold l1
  have hz : (val_main_cst (F := Ideal)) (Shape.Idx.first h_S_) = (0 : EReal) := Ideal.ofBits_zero_f32
  rw [hz, zero_add]
  refine Finset.sum_congr rfl fun k _ => ?_
  rw [val_main_v27_apply, val_main_v26_apply, val_main_v24_apply, val_main_v25_apply, val_main_v23_apply]
  have e1 : idx_main_v24 (idx_main_v28 i k) = ix3 ⟨(i 0).val, (i 0).isLt⟩ (0 : Fin 1) k :=
    funext fun a => Fin.ext (by match a with | ⟨0, _⟩ => rfl | ⟨1, _⟩ => rfl | ⟨2, _⟩ => rfl)
  have e2 : idx_main_v23 (idx_main_v25 (idx_main_v28 i k)) = ix2 ⟨(i 1).val, (i 1).isLt⟩ k :=
    funext fun a => Fin.ext (by match a with | ⟨0, _⟩ => rfl | ⟨1, _⟩ => rfl)
  rw [e1, e2]
  rfl

end Cert.ReferenceIdeal.RefL1

end
-- ==== Proof.Bridge.lean ====
/-
  The two programs compute one function.
  The kernel program's result is the transpose of the [64, 8192] array of L1 distances between columns of the
  TRANSPOSED patch and filter matrices; transposing back, entry (q, f) is the L1 distance between ROW q of the patch
  matrix and ROW f of the filter matrix. The reference computes exactly that matrix from the same patch stack, which it
  flattens to [8192, 1, 288] where the kernel program flattens it to [8192, 288]: the same entries in the same
  row-major order. Both then reshape the [8192, 64] matrix to [8, 32, 32, 64].
-/
import proofs.«144693_j5617817223690_2_alg».proof.Proof.IdealResult
import proofs.«144693_j5617817223690_2_alg».proof.Proof.RefL1
import Idealize.ShloMosaic.Lib.ValueLayout

set_option maxRecDepth 16384

noncomputable section

open scoped BigOperators

namespace Cert.L1Bridge

open Cert.L1Dist
open Idealize.ShloMosaic Idealize.ShloMosaic.ValueIdx

/-- Transposing the array of distances between columns of the transposed matrices gives the matrix of distances
    between rows of the matrices themselves. -/
theorem transposed_distances (P : (⟨2, ![8192, 288]⟩ : Shape).Idx → EReal) (Fm : (⟨2, ![64, 288]⟩ : Shape).Idx → EReal)
    (hP : (⟨2, ![8192, 288]⟩ : Shape).Transposes [1, 0] ⟨2, ![288, 8192]⟩)
    (hF : (⟨2, ![64, 288]⟩ : Shape).Transposes [1, 0] ⟨2, ![288, 64]⟩)
    (hD : (⟨2, ![64, 8192]⟩ : Shape).Transposes [1, 0] ⟨2, ![8192, 64]⟩) :
    transpose ⟨2, ![8192, 64]⟩ [1, 0]
        (Cert.KernelIdeal.Hand.l1T (transpose ⟨2, ![288, 8192]⟩ [1, 0] P hP) (transpose ⟨2, ![288, 64]⟩ [1, 0] Fm hF)) hD
      = l1 P Fm := by
  funext i
  obtain ⟨q, f, rfl⟩ : ∃ (q : Fin 8192) (f : Fin 64), i = ix2 q f := ⟨i 0, i 1, eq_ix2 i⟩
  refine (transpose_ix2_apply (a := 64) (b := 8192) _ hD q f).trans ?_
  unfold Cert.KernelIdeal.Hand.l1T l1
  exact Finset.sum_congr rfl fun k _ => congrArg₂ dist (transpose_ix2_apply (a := 8192) (b := 288) P hP k q)
    (transpose_ix2_apply (a := 64) (b := 288) Fm hF k f)

/-- The kernel program's patch stack is the reference's. -/
theorem patchStack_eq (X : FVec Ideal Cert.KernelIdeal.S8x32x32x32 .f32) :
    Cert.KernelIdeal.Hand.patchStack (F := Ideal) X = Cert.ReferenceIdeal.Read.val_main_v20 (F := Ideal) X := rfl

/-- The two flattenings of the patch stack, to [8192, 288] and to [8192, 1, 288], hold the same entries. -/
theorem patchRows_eq (X : FVec Ideal Cert.KernelIdeal.S8x32x32x32 .f32) :
    Cert.ReferenceIdeal.RefL1.patchRows X
      = shapeCast Cert.KernelIdeal.S8192x288 (Cert.KernelIdeal.Hand.patchStack (F := Ideal) X) Cert.KernelIdeal.Gen.shapeCasts_S8x32x32x288_S8192x288 := by
  funext i
  obtain ⟨q, k, rfl⟩ : ∃ (q : Fin 8192) (k : Fin 288), i = ix2 q k := ⟨i 0, i 1, eq_ix2 i⟩
  unfold Cert.ReferenceIdeal.RefL1.patchRows
  rw [Cert.ReferenceIdeal.Read.val_main_v22_apply, patchStack_eq]
  generalize Cert.ReferenceIdeal.Read.val_main_v20 (F := Ideal) X = Y
  symm
  exact shapeCast_apply Y Cert.KernelIdeal.Gen.shapeCasts_S8x32x32x288_S8192x288 (ix2 q k)
    (Cert.ReferenceIdeal.Read.idx_main_v22 (ix3 q (0 : Fin 1) k))
    (by rw [Shape.rowMajor_val_four, Shape.rowMajor_val_two]
        have hq : q.val < 8192 := q.isLt
        have hk : k.val < 288 := k.isLt
        show ((((q.val * 1 + 0) * 288 + k.val) / 294912 * 32 + ((q.val * 1 + 0) * 288 + k.val) / 9216 % 32) * 32 + ((q.val * 1 + 0) * 288 + k.val) / 288 % 32) * 288 + ((q.val * 1 + 0) * 288 + k.val) % 288 = q.val * 288 + k.val
        omega)

/-- The filters flattened to [64, 288] are the same matrix in both programs. -/
theorem filterRows_eq (W : FVec Ideal Cert.KernelIdeal.S64x3x3x32 .f32) :
    Cert.ReferenceIdeal.Read.val_main_v21 (F := Ideal) W
      = shapeCast Cert.KernelIdeal.S64x288 W Cert.KernelIdeal.Gen.shapeCasts_S64x3x3x32_S64x288 := rfl

/-- THE BRIDGE: the kernel program's result function is the reference's. -/
theorem results_agree (X : FVec Ideal Cert.KernelIdeal.S8x32x32x32 .f32) (W : FVec Ideal Cert.KernelIdeal.S64x3x3x32 .f32) :
    Cert.KernelIdeal.Hand.resultOf X W = Cert.ReferenceIdeal.Read.val_main_v29 (F := Ideal) X W := by
  unfold Cert.KernelIdeal.Hand.resultOf Cert.ReferenceIdeal.Read.val_main_v29
  rw [Cert.ReferenceIdeal.RefL1.distances_eq, patchRows_eq, filterRows_eq]
  refine congrArg (fun A => shapeCast Cert.KernelIdeal.S8x32x32x64 A Cert.KernelIdeal.Gen.shapeCasts_S8192x64_S8x32x32x64) ?_
  exact transposed_distances _ _ _ _ _

end Cert.L1Bridge

end
-- ==== Proof.lean ====
/-
  An L1-distance ("adder") convolution, 3 x 3 windows with one pixel of zero padding, over an [8, 32, 32, 32] image
  and 64 filters of shape [3, 3, 32]:
      Z[n, h, w, f] = sum over (dh, dw, c) of | Xpad[n, h + dh, w + dw, c] - filters[f, dh, dw, c] |.
  Both programs first build the patch stack P[n, h, w, (dh, dw, c)] (288 window entries per output position) with the
  same host operations. The reference flattens it to an [8192, 288] patch matrix, subtracts every row of the [64, 288]
  filter matrix from every patch, takes absolute values and sums the 288 entries. The kernel program transposes both
  matrices, and its kernel, on each of eight tiles of 1024 output positions, forms for each filter the array
  |patch tile - filter column| in bf16, widens it to f32 and sums it down the 288 rows; the result, [64, 8192], is
  transposed back. At the ideal values a change of float format is the identity and both sums run over the same 288
  terms in the same order, so the two results are one function of the arguments: no finiteness of the inputs is used.

  The frames (each program runs to its end without a fault and leaves its arguments unchanged): for the two kernel
  programs the body is run once on symbolic operands and the launch theorem for one region between host lines gives
  the run; for the reference its run is the composition of its host operations. The idealization rewrote nothing, so
  the preservation claim is trivial.
-/
import proofs.«144693_j5617817223690_2_alg».proof.Defs
import proofs.«144693_j5617817223690_2_alg».proof.Proof.Gen.Kernel
import proofs.«144693_j5617817223690_2_alg».proof.Proof.Gen.KernelIdeal
import proofs.«144693_j5617817223690_2_alg».proof.Proof.Gen.ReferenceIdeal
import proofs.«144693_j5617817223690_2_alg».proof.Proof.Gen.Pre_finite_inputs
import proofs.«144693_j5617817223690_2_alg».proof.Proof.Gen.ReferenceIdeal.Run
import proofs.«144693_j5617817223690_2_alg».proof.Proof.Gen.ReferenceIdeal.Read
import proofs.«144693_j5617817223690_2_alg».proof.Proof.BitsRun
import proofs.«144693_j5617817223690_2_alg».proof.Proof.IdealRun
import proofs.«144693_j5617817223690_2_alg».proof.Proof.IdealResult
import proofs.«144693_j5617817223690_2_alg».proof.Proof.Bridge

noncomputable section

namespace Cert.Proof

open Idealize.ShloMosaic Idealize.ShloMosaic.TcCoe Idealize.SL.Sem

/-- The kernel program as printed runs to its end and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel program ends with the L1 distances of its transposed matrices, transposed back
    and reshaped, and the reference with the L1 distances of its matrices, reshaped: one function of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  exact (Cert.L1Bridge.results_agree _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
